-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S10000x128 : Shape := ⟨2, ![10000, 128]⟩
abbrev S10000x1 : Shape := ⟨2, ![10000, 1]⟩

abbrev nBuf : Space → Nat
  | .hbm => 90
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S1x128, .f32⟩
  | .hbm, ⟨50, _⟩ => ⟨S100000x1, .f32⟩
  | .hbm, ⟨51, _⟩ => ⟨S100000x128, .f32⟩
  | .hbm, ⟨52, _⟩ => ⟨S100000x1, .f32⟩
  | .hbm, ⟨53, _⟩ => ⟨S100000x128, .f32⟩
  | .hbm, ⟨54, _⟩ => ⟨S100000x128, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S1x128, .f32⟩
  | .hbm, ⟨69, _⟩ => ⟨S100000x1, .f32⟩
  | .hbm, ⟨70, _⟩ => ⟨S100000x128, .f32⟩
  | .hbm, ⟨71, _⟩ => ⟨S100000x1, .f32⟩
  | .hbm, ⟨72, _⟩ => ⟨S100000x128, .f32⟩
  | .hbm, ⟨73, _⟩ => ⟨S100000x128, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x128, .f32⟩
  | .hbm, ⟨83, _⟩ => ⟨S_, .f32⟩
  | .hbm, ⟨84, _⟩ => ⟨S100000x128, .f32⟩
  | .hbm, ⟨85, _⟩ => ⟨S1600000x1, .i32⟩
  | .hbm, ⟨86, _⟩ => ⟨S100000x128, .f32⟩
  | .hbm, ⟨87, _⟩ => ⟨S1x128, .f32⟩
  | .hbm, ⟨88, _⟩ => ⟨S100000x1, .f32⟩
  | .hbm, ⟨89, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x1, .f32⟩
  | .local _ .vmem, ⟨5, _⟩ => ⟨S10000x1, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S1x128, .f32⟩
  | .local _ .vmem, ⟨14, _⟩ => ⟨S10000x1, .f32⟩
  | .local _ .vmem, ⟨15, _⟩ => ⟨S10000x1, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x128, .f32⟩
  | .local _ .vmem, ⟨23, _⟩ => ⟨S1x128, .f32⟩
  | .local _ .vmem, ⟨24, _⟩ => ⟨S10000x1, .f32⟩
  | .local _ .vmem, ⟨25, _⟩ => ⟨S10000x1, .f32⟩
  | .local _ .vmem, ⟨26, _⟩ => ⟨S10000x128, .f32⟩
  | .local _ .vmem, ⟨27, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_cst_3 : Ref sig .tc := ⟨.hbm, 23, rfl⟩
abbrev main_v8 : Ref sig .tc := ⟨.hbm, 24, rfl⟩
abbrev main_v9 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v10 : Ref sig .tc := ⟨.hbm, 29, rfl⟩
abbrev main_cst_5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_7 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_8 : Ref sig .tc := ⟨.hbm, 55, rfl⟩
abbrev main_v32 : Ref sig .tc := ⟨.hbm, 56, rfl⟩
abbrev main_v33 : Ref sig .tc := ⟨.hbm, 57, rfl⟩
abbrev main_c_9 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_10 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_11 : Ref sig .tc := ⟨.hbm, 74, rfl⟩
abbrev main_v48 : Ref sig .tc := ⟨.hbm, 75, rfl⟩
abbrev main_v49 : Ref sig .tc := ⟨.hbm, 76, rfl⟩
abbrev main_c_12 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_13 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25
abbrev cc2_sem4_0 : DmaSem sig := 26
abbrev cc2_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S10000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S10000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S128_S1x128 : S128.ShapeCasts S1x128
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x1.size a ≤ S100000x1.size a
  hwx0_3 : ∀ i : grid0.Coords, EltTy.bits .f32 = 32 ∨ (Rect.block (s := S100000x1) S10000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S100000x128.size a
  hwx0_4 : ∀ i : grid0.Coords, EltTy.bits .f32 = 32 ∨ (Rect.block (s := S100000x128) S10000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S100000x128.size a
  hwx0_5 : ∀ i : grid0.Coords, EltTy.bits .f32 = 32 ∨ (Rect.block (s := S100000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x1.size a ≤ S100000x1.size a
  hwx1_3 : ∀ i : grid1.Coords, EltTy.bits .f32 = 32 ∨ (Rect.block (s := S100000x1) S10000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S100000x128.size a
  hwx1_4 : ∀ i : grid1.Coords, EltTy.bits .f32 = 32 ∨ (Rect.block (s := S100000x128) S10000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x1.size a ≤ S100000x1.size a
  hwx2_3 : ∀ i : grid2.Coords, EltTy.bits .f32 = 32 ∨ (Rect.block (s := S100000x1) S10000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x128.size a ≤ S100000x128.size a
  hwx2_4 : ∀ i : grid2.Coords, EltTy.bits .f32 = 32 ∨ (Rect.block (s := S100000x128) S10000x128.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v25) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S10000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S10000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v28) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S10000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v28) S10000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v44) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S10000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v60) S10000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩

abbrev nBuf : Space → Nat
  | .hbm => 167
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S_, .f32⟩
  | 10 => ⟨S1600000, .f32⟩
  | 11 => ⟨S_, .f32⟩
  | 12 => ⟨S100000, .f32⟩
  | 13 => ⟨S1600000x1, .i32⟩
  | 14 => ⟨S100000, .f32⟩
  | 15 => ⟨S_, .f32⟩
  | 16 => ⟨S_, .f32⟩
  | 17 => ⟨S100000, .f32⟩
  | 18 => ⟨S100000, .f32⟩
  | 19 => ⟨S_, .f32⟩
  | 20 => ⟨S100000, .f32⟩
  | 21 => ⟨S100000, .f32⟩
  | 22 => ⟨S100000x1, .f32⟩
  | 23 => ⟨S100000x128, .f32⟩
  | 24 => ⟨S100000x128, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x128, .f32⟩
  | 34 => ⟨S_, .f32⟩
  | 35 => ⟨S100000x128, .f32⟩
  | 36 => ⟨S1600000x1, .i32⟩
  | 37 => ⟨S100000x128, .f32⟩
  | 38 => ⟨S128x128, .f32⟩
  | 39 => ⟨S100000x128, .f32⟩
  | 40 => ⟨S1x128, .f32⟩
  | 41 => ⟨S100000x128, .f32⟩
  | 42 => ⟨S100000x128, .f32⟩
  | 43 => ⟨S_, .f32⟩
  | 44 => ⟨S1600000, .f32⟩
  | 45 => ⟨S_, .f32⟩
  | 46 => ⟨S100000, .f32⟩
  | 47 => ⟨S1600000x1, .i32⟩
  | 48 => ⟨S100000, .f32⟩
  | 49 => ⟨S_, .f32⟩
  | 50 => ⟨S_, .f32⟩
  | 51 => ⟨S100000, .f32⟩
  | 52 => ⟨S100000, .f32⟩
  | 53 => ⟨S_, .f32⟩
  | 54 => ⟨S100000, .f32⟩
  | 55 => ⟨S100000, .f32⟩
  | 56 => ⟨S100000x1, .f32⟩
  | 57 => ⟨S100000x128, .f32⟩
  | 58 => ⟨S100000x128, .f32⟩
  | 59 => ⟨S100000x128, .f32⟩
  | 60 => ⟨S_, .f32⟩
  | 61 => ⟨S100000x128, .f32⟩
  | 62 => ⟨S100000x128, .f32⟩
  | 63 => ⟨S_, .f32⟩
  | 64 => ⟨S1600000, .f32⟩
  | 65 => ⟨S_, .f32⟩
  | 66 => ⟨S100000, .f32⟩
  | 67 => ⟨S1600000x1, .i32⟩
  | 68 => ⟨S100000, .f32⟩
  | 69 => ⟨S_, .f32⟩
  | 70 => ⟨S_, .f32⟩
  | 71 => ⟨S100000, .f32⟩
  | 72 => ⟨S100000, .f32⟩
  | 73 => ⟨S_, .f32⟩
  | 74 => ⟨S100000, .f32⟩
  | 75 => ⟨S100000, .f32⟩
  | 76 => ⟨S100000x1, .f32⟩
  | 77 => ⟨S100000x128, .f32⟩
  | 78 => ⟨S100000x128, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x128, .f32⟩
  | 88 => ⟨S_, .f32⟩
  | 89 => ⟨S100000x128, .f32⟩
  | 90 => ⟨S1600000x1, .i32⟩
  | 91 => ⟨S100000x128, .f32⟩
  | 92 => ⟨S128x128, .f32⟩
  | 93 => ⟨S100000x128, .f32⟩
  | 94 => ⟨S1x128, .f32⟩
  | 95 => ⟨S100000x128, .f32⟩
  | 96 => ⟨S100000x128, .f32⟩
  | 97 => ⟨S_, .f32⟩
  | 98 => ⟨S1600000, .f32⟩
  | 99 => ⟨S_, .f32⟩
  | 100 => ⟨S100000, .f32⟩
  | 101 => ⟨S1600000x1, .i32⟩
  | 102 => ⟨S100000, .f32⟩
  | 103 => ⟨S_, .f32⟩
  | 104 => ⟨S_, .f32⟩
  | 105 => ⟨S100000, .f32⟩
  | 106 => ⟨S100000, .f32⟩
  | 107 => ⟨S_, .f32⟩
  | 108 => ⟨S100000, .f32⟩
  | 109 => ⟨S100000, .f32⟩
  | 110 => ⟨S100000x1, .f32⟩
  | 111 => ⟨S100000x128, .f32⟩
  | 112 => ⟨S100000x128, .f32⟩
  | 113 => ⟨S100000x128, .f32⟩
  | 114 => ⟨S_, .f32⟩
  | 115 => ⟨S100000x128, .f32⟩
  | 116 => ⟨S100000x128, .f32⟩
  | 117 => ⟨S_, .f32⟩
  | 118 => ⟨S1600000, .f32⟩
  | 119 => ⟨S_, .f32⟩
  | 120 => ⟨S100000, .f32⟩
  | 121 => ⟨S1600000x1, .i32⟩
  | 122 => ⟨S100000, .f32⟩
  | 123 => ⟨S_, .f32⟩
  | 124 => ⟨S_, .f32⟩
  | 125 => ⟨S100000, .f32⟩
  | 126 => ⟨S100000, .f32⟩
  | 127 => ⟨S_, .f32⟩
  | _ => ⟨S100000x128, .f32⟩

abbrev hbmTy0_1 (i : Nat) : BufTy := match i % 128 with
  | 0 => ⟨S100000, .f32⟩
  | 1 => ⟨S100000, .f32⟩
  | 2 => ⟨S100000x1, .f32⟩
  | 3 => ⟨S100000x128, .f32⟩
  | 4 => ⟨S100000x128, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000x128, .f32⟩
  | 14 => ⟨S_, .f32⟩
  | 15 => ⟨S100000x128, .f32⟩
  | 16 => ⟨S1600000x1, .i32⟩
  | 17 => ⟨S100000x128, .f32⟩
  | 18 => ⟨S128x128, .f32⟩
  | 19 => ⟨S100000x128, .f32⟩
  | 20 => ⟨S1x128, .f32⟩
  | 21 => ⟨S100000x128, .f32⟩
  | 22 => ⟨S100000x128, .f32⟩
  | 23 => ⟨S_, .f32⟩
  | 24 => ⟨S1600000, .f32⟩
  | 25 => ⟨S_, .f32⟩
  | 26 => ⟨S100000, .f32⟩
  | 27 => ⟨S1600000x1, .i32⟩
  | 28 => ⟨S100000, .f32⟩
  | 29 => ⟨S_, .f32⟩
  | 30 => ⟨S_, .f32⟩
  | 31 => ⟨S100000, .f32⟩
  | 32 => ⟨S100000, .f32⟩
  | 33 => ⟨S_, .f32⟩
  | 34 => ⟨S100000, .f32⟩
  | 35 => ⟨S100000, .f32⟩
  | 36 => ⟨S100000x1, .f32⟩
  | 37 => ⟨S100000x128, .f32⟩
  | 38 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_c_3 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_cst_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_call1_v0 : Ref sig .tc := ⟨.hbm, 50, rfl⟩
abbrev main_call1_v1 : Ref sig .tc := ⟨.hbm, 51, rfl⟩
abbrev main_v29 : Ref sig .tc := ⟨.hbm, 52, rfl⟩
abbrev main_cst_8 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_call2_cst : Ref sig .tc := ⟨.hbm, 60, rfl⟩
abbrev main_call2_v0 : Ref sig .tc := ⟨.hbm, 61, rfl⟩
abbrev main_v36 : Ref sig .tc := ⟨.hbm, 62, rfl⟩
abbrev main_cst_9 : Ref sig .tc := ⟨.hbm, 63, rfl⟩
abbrev main_v37 : Ref sig .tc := ⟨.hbm, 64, rfl⟩
abbrev main_cst_10 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_11 : Ref sig .tc := ⟨.hbm, 69, rfl⟩
abbrev main_call3_v0 : Ref sig .tc := ⟨.hbm, 70, rfl⟩
abbrev main_call3_v1 : Ref sig .tc := ⟨.hbm, 71, rfl⟩
abbrev main_v41 : Ref sig .tc := ⟨.hbm, 72, rfl⟩
abbrev main_cst_12 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_c_13 : Ref sig .tc := ⟨.hbm, 79, rfl⟩
abbrev main_v47 : Ref sig .tc := ⟨.hbm, 80, rfl⟩
abbrev main_v48 : Ref sig .tc := ⟨.hbm, 81, rfl⟩
abbrev main_c_14 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_15 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_16 : Ref sig .tc := ⟨.hbm, 97, rfl⟩
abbrev main_v62 : Ref sig .tc := ⟨.hbm, 98, rfl⟩
abbrev main_cst_17 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_18 : Ref sig .tc := ⟨.hbm, 103, rfl⟩
abbrev main_call4_v0 : Ref sig .tc := ⟨.hbm, 104, rfl⟩
abbrev main_call4_v1 : Ref sig .tc := ⟨.hbm, 105, rfl⟩
abbrev main_v66 : Ref sig .tc := ⟨.hbm, 106, rfl⟩
abbrev main_cst_19 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_call5_cst : Ref sig .tc := ⟨.hbm, 114, rfl⟩
abbrev main_call5_v0 : Ref sig .tc := ⟨.hbm, 115, rfl⟩
abbrev main_v73 : Ref sig .tc := ⟨.hbm, 116, rfl⟩
abbrev main_cst_20 : Ref sig .tc := ⟨.hbm, 117, rfl⟩
abbrev main_v74 : Ref sig .tc := ⟨.hbm, 118, rfl⟩
abbrev main_cst_21 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_cst_22 : Ref sig .tc := ⟨.hbm, 123, rfl⟩
abbrev main_call6_v0 : Ref sig .tc := ⟨.hbm, 124, rfl⟩
abbrev main_call6_v1 : Ref sig .tc := ⟨.hbm, 125, rfl⟩
abbrev main_v78 : Ref sig .tc := ⟨.hbm, 126, rfl⟩
abbrev main_cst_23 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_c_24 : Ref sig .tc := ⟨.hbm, 133, rfl⟩
abbrev main_v84 : Ref sig .tc := ⟨.hbm, 134, rfl⟩
abbrev main_v85 : Ref sig .tc := ⟨.hbm, 135, rfl⟩
abbrev main_c_25 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_cst_26 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_cst_27 : Ref sig .tc := ⟨.hbm, 151, rfl⟩
abbrev main_v99 : Ref sig .tc := ⟨.hbm, 152, rfl⟩
abbrev main_cst_28 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_cst_29 : Ref sig .tc := ⟨.hbm, 157, rfl⟩
abbrev main_call7_v0 : Ref sig .tc := ⟨.hbm, 158, rfl⟩
abbrev main_call7_v1 : Ref sig .tc := ⟨.hbm, 159, rfl⟩
abbrev main_v103 : Ref sig .tc := ⟨.hbm, 160, rfl⟩
abbrev main_cst_30 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The run of the kernel program with its result named: from any memory with zero counters every weakly fair
  execution of @main on the TensorCores terminates, nothing faulting, and every final state holds, at the result
  buffer, the last boundary's contents `W10` (the fold of buffer contents through @main), and at each argument
  what it was launched with.

  The launch theorem for a program that is a list of host stretches and kernel regions asks for: the program as
  the run of its segments, the regions' pipelines distinct, the launch's ghost element, the first thread state made
  from what the launch deals each core, and the last thread state read against a final state.  The segments, their
  proof data and thread states are the generated frame module's; the three launch-side entailments are below, each
  a lemma of its own, and the theorem reads the result buffer and the arguments off the final reading.
-/
import proofs.«126953_j15590731285057_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's ghost element is the pipelines' own initial element, and no core is left anything besides. -/
theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  rw [BI.bigSep_emp_const]
  -- owning the launch element is, by definition, owning its image in the pipelines' resource algebra
  have hown : (ownU (initOf (Pipeline.cells cfgs cellOf_inj) (Pipeline.launchToks cfgs cellOf_inj)) : sProp 𝕄)
      ⊢ BI.own (emb₁ (initOf (Pipeline.cells cfgs cellOf_inj) (Pipeline.launchToks cfgs cellOf_inj))) := .rfl
  iintro Hown
  imodintro
  isplitl [Hown]
  · iapply hown; iexact Hown
  · iempintro

/-- What the launch deals a core is its first thread state: the unscoped buffers at the launch memory, the
    generator register at some state, nothing owed. -/
theorem launch_state (c : Dev nD) :
    iprop((unscopedBufs c (fun b => m ((c : Thread nD τ).loc b)) ∗ unscopedSems0 c
          ∗ owes (c : Thread nD τ) ((0 : Dev nD → CellTallies nD τ sig Unit) c) ∅ ∗ Pipeline.launchCred (0 : Dev nD → CellTallies nD τ sig Unit) c
          ∗ prngReg c (ρ c) ∗ (BI.emp : sProp 𝕄)) ∗ levAts L lv)
      ⊢ |={Set.univ}=> iprop(StableHlo.held (c : Thread nD τ) (Pipeline.ucRefs τ sig) (W0 m ρ c) ∗ R c) := by
  rw [← Pipeline.unscopedBufs_held c (W0 m ρ c)]
  iintro ⟨⟨Hbufs, Hsems, Howes, Hcred, Hreg, Hemp⟩, Hlev⟩
  imodintro
  isplitl [Hbufs]
  · iexact Hbufs
  isplitl [Hreg]
  · iexists (ρ c); iexact Hreg
  · iexists ∅; iexact Howes

/-- The last thread state against a final state: every unscoped buffer holds the last boundary's contents. -/
theorem read_final (c : Dev nD) (s' : Phys nD τ sig (Elt F)) :
    iprop(Tₙ m ρ c ∗ SI s')
      ⊢ |={Set.univ}=> iprop(⌜∀ b ∈ Pipeline.ucRefs τ sig, s'.mem.mem (((c : Thread nD τ)).1, b) = W10 m ρ c b⌝ ∗ SI s') := by
  iintro ⟨⟨Hbufs, Hreg⟩, Hsi⟩
  imodintro
  iapply (pointsTo_read_all (Pipeline.ucRefs τ sig) (fun b => (((c : Thread nD τ)).1, b)) (W10 m ρ c) s')
  isplitl [Hbufs]
  · unfold StableHlo.held; iexact Hbufs
  · iexact Hsi

-- the launch theorem's implicit arguments are found by unifying its conclusion with this one, which takes unfolding
-- plain definitions in a metavariable's type
set_option backward.isDefEq.respectTransparency.types false in
/-- Every weakly fair execution of @main terminates, nothing faulting; the final state has the result buffer
    `main_v60` at the last boundary's contents `W10` and every argument array as launched. -/
theorem run : θ_run defs (onTc (τ := τ) (main (F := F))) ⟨m, fun _ => 0, ρ⟩ (fun r => ∀ c : Dev nD,
      r.2.mem ((c.tc : Thread nD τ).loc main_v60) = W10 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => (main_run m ρ c).symm ▸ BI.Entails.refl _)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_ghost)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl⟩)
    (hinit := Pipeline.initEach L lv fun c => launch_state m ρ c)
    (QY := fun c s => ∀ b ∈ Pipeline.ucRefs τ sig, s.mem (((c : Thread nD τ)).1, b) = W10 m ρ c b)
    (hfin := fun c s' => read_final m ρ c s')
    (hQ := fun s h c =>
      have at_uc : ∀ (b : Ref sig .tc) (hb : ¬ (Proc.devRef .tc b : DevRef τ sig).isScoped),
          s.mem ((c.tc : Thread nD τ).loc b) = W10 m ρ c (Proc.devRef .tc b) := fun b hb => h c _ (mem_uc b hb)
      ⟨at_uc main_v60 (by decide),
       (at_uc main_arg0 (by decide)).trans (W10_main_arg0 m ρ c),
       (at_uc main_arg1 (by decide)).trans (W10_main_arg1 m ρ c),
       (at_uc main_arg2 (by decide)).trans (W10_main_arg2 m ρ c),
       (at_uc main_arg3 (by decide)).trans (W10_main_arg3 m ρ c),
       (at_uc main_arg4 (by decide)).trans (W10_main_arg4 m ρ c),
       (at_uc main_arg5 (by decide)).trans (W10_main_arg5 m ρ c),
       (at_uc main_arg6 (by decide)).trans (W10_main_arg6 m ρ c),
       (at_uc main_arg7 (by decide)).trans (W10_main_arg7 m ρ c),
       (at_uc main_arg8 (by decide)).trans (W10_main_arg8 m ρ c)⟩)

end Cert.KernelIdeal.Run

end
-- ==== Proof.Spec.lean ====
/-
  The dense half of one graph-convolution layer, as a function of whole arrays, entry by entry, on the
  extended reals.  For the aggregated messages `agg` (nodes × features), the weight matrix `W`
  (output feature × input feature), the bias `b`, the in-degree scale `nrm` (one number per node) and the
  layer's input `x`:

    lin   agg W b nrm       (n, j) = ((∑ₖ agg (n, k) · W (j, k)) + b j) · nrm n
    dense agg W b nrm x     (n, j) = max (lin … (n, j) + x (n, j)) 0

  The first two layers are `dense` (identity residual, then the rectifier); the last is `lin` alone.
  The zero of the rectifier is kept as the f32 zero word read at the ideal instance, the form in which
  both programs spell it.
-/
import Idealize.ShloMosaic.PureOps.Ideal
import Idealize.ShloMosaic.Lib.ValueIdx

noncomputable section

namespace Cert.Spec

open Idealize.ShloMosaic Idealize.ShloMosaic.ValueIdx

/-- Nodes × features. -/
abbrev SN : Shape := ⟨2, ![100000, 128]⟩
/-- A weight matrix: output feature × input feature. -/
abbrev SW : Shape := ⟨2, ![128, 128]⟩
/-- A bias: one entry per output feature. -/
abbrev SB : Shape := ⟨1, ![128]⟩
/-- A degree scale: one entry per node. -/
abbrev SD : Shape := ⟨1, ![100000]⟩

/-- Entry (n, j) of `(agg · Wᵀ + b) · nrm`: the row of `agg` against row `j` of `W`, plus the bias, scaled
    by the node's in-degree factor. -/
def lin (agg : FVec Ideal SN .f32) (W : FVec Ideal SW .f32) (b : FVec Ideal SB .f32) (nrm : FVec Ideal SD .f32) :
    FVec Ideal SN .f32 :=
  fun i => ((∑ k : Fin 128, agg (ix2 (i 0) k) * W (ix2 (i 1) k)) + b (ix1 (i 1))) * nrm (ix1 (i 0))

/-- A layer with the identity residual and the rectifier: `max (lin + x) 0`. -/
def dense (agg : FVec Ideal SN .f32) (W : FVec Ideal SW .f32) (b : FVec Ideal SB .f32) (nrm : FVec Ideal SD .f32)
    (x : FVec Ideal SN .f32) : FVec Ideal SN .f32 :=
  fun i => max (lin agg W b nrm i + x i) (Ideal.ofBits .f32 0x00000000#32)

theorem lin_apply (agg : FVec Ideal SN .f32) (W : FVec Ideal SW .f32) (b : FVec Ideal SB .f32) (nrm : FVec Ideal SD .f32)
    (p : Fin 100000) (q : Fin 128) :
    lin agg W b nrm (ix2 p q) = ((∑ k : Fin 128, agg (ix2 p k) * W (ix2 q k)) + b (ix1 q)) * nrm (ix1 p) := rfl

theorem dense_apply (agg : FVec Ideal SN .f32) (W : FVec Ideal SW .f32) (b : FVec Ideal SB .f32) (nrm : FVec Ideal SD .f32)
    (x : FVec Ideal SN .f32) (p : Fin 100000) (q : Fin 128) :
    dense agg W b nrm x (ix2 p q)
      = max (((∑ k : Fin 128, agg (ix2 p k) * W (ix2 q k)) + b (ix1 q)) * nrm (ix1 p) + x (ix2 p q))
          (Ideal.ofBits .f32 0x00000000#32) := rfl

end Cert.Spec

end
-- ==== Proof.KernelDefs.lean ====
/-
  The host half of a graph-convolution layer as the kernel's program spells it, and the three layers composed.
  `nrm idx` is `max(deg, 1) ^ (-1/2)` of the degrees counted from an index array (a scatter-add of ones);
  `agg x src dst` scales the rows of `x` by the out-degree factor, gathers the rows named by `src` and
  scatter-adds them into the rows named by `dst`; `gcn` is two dense layers with residual and rectifier
  followed by a last linear one, each fed by `agg` of the previous layer's result.
-/
import proofs.«126953_j15590731285057_1_alg».proof.Proof.Gen.KernelIdeal
import proofs.«126953_j15590731285057_1_alg».proof.Proof.Spec

noncomputable section

namespace Cert.KernelIdeal.Host

open Cert.KernelIdeal Cert.KernelIdeal.Gen Idealize.ShloMosaic

/-- `clip(segment_sum(ones, idx), 1) ** -0.5`: one factor per node. -/
def nrm (idx : (⟨S1600000, .i32⟩ : BufTy).Contents (Elt Ideal)) : (⟨S100000, .f32⟩ : BufTy).Contents (Elt Ideal) :=
  Host.powf (F := Ideal) (maximumf (broadcastInDim S100000 ![] bcast_S_S100000 (id (constant (F := Ideal) S_ .f32 0x3F800000#32))) (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 idx) (broadcastInDim S1600000 ![] bcast_S_S1600000 (constant (F := Ideal) S_ .f32 0x3F800000#32)))) (broadcastInDim S100000 ![] bcast_S_S100000 (constant (F := Ideal) S_ .f32 0xBF000000#32))

/-- The messages aggregated at each node: rows of `x` scaled by the source's factor, gathered along `src`, summed into `dst`. -/
def agg (x : (⟨S100000x128, .f32⟩ : BufTy).Contents (Elt Ideal)) (src dst : (⟨S1600000, .i32⟩ : BufTy).Contents (Elt Ideal)) :
    (⟨S100000x128, .f32⟩ : BufTy).Contents (Elt Ideal) :=
  Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 dst) (Host.gather gather_S100000x128_S1600000x1_S1600000x128_1_0_n_n_0_1_1128 (mulf x (broadcastInDim S100000x128 ![0, 1] bcast_S100000x1_S100000x128_0_1 (broadcastInDim S100000x1 ![0] bcast_S100000_S100000x1_0 (nrm src)))) (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))

/-- The three layers. -/
def gcn (x : (⟨S100000x128, .f32⟩ : BufTy).Contents (Elt Ideal)) (src dst : (⟨S1600000, .i32⟩ : BufTy).Contents (Elt Ideal))
    (W1 : (⟨S128x128, .f32⟩ : BufTy).Contents (Elt Ideal)) (b1 : (⟨S128, .f32⟩ : BufTy).Contents (Elt Ideal))
    (W2 : (⟨S128x128, .f32⟩ : BufTy).Contents (Elt Ideal)) (b2 : (⟨S128, .f32⟩ : BufTy).Contents (Elt Ideal))
    (W3 : (⟨S128x128, .f32⟩ : BufTy).Contents (Elt Ideal)) (b3 : (⟨S128, .f32⟩ : BufTy).Contents (Elt Ideal)) :
    (⟨S100000x128, .f32⟩ : BufTy).Contents (Elt Ideal) :=
  Cert.Spec.lin (agg (Cert.Spec.dense (agg (Cert.Spec.dense (agg x src dst) W1 b1 (nrm dst) x) src dst) W2 b2 (nrm dst) (Cert.Spec.dense (agg x src dst) W1 b1 (nrm dst) x)) src dst) W3 b3 (nrm dst)

end Cert.KernelIdeal.Host

end
-- ==== Proof.LibColumn.lean ====
/-
  A vector kept as a column and spread over the columns of a matrix, read at an index: the two layout steps a
  `keepdims` row reduction prints in a kernel body — an [a] vector cast to [a, 1], and an [a, 1] column broadcast to
  [a, b] — and their composite, which at (p, c) is the vector's entry p whatever the column c. Any extents, any
  element type.
-/
import Idealize.ShloMosaic.Lib.Pipeline.Value
import Idealize.ShloMosaic.Lib.ValueIdx

namespace Cert.Lib.Column

open Idealize.ShloMosaic Idealize.ShloMosaic.ValueIdx

variable {α : Type}

/-- An [a] vector cast to the column [a, 1] reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] column broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The composite: an [a] vector kept as a column and spread over b columns reads, at (p, c), the vector at p. -/
theorem column_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

end Cert.Lib.Column
-- ==== Proof.KernelHost0.lean ====
/-
  The host stretches of the kernel program, read one stretch at a time at ANY buffer contents `V` on entry: what
  each value the regions (or a later stretch) read holds after the stretch, as a function of what the stretch
  itself reads, and that a buffer the stretch does not write keeps its contents.  The degree scale is spelt in
  three steps — the count `deg`, the lower bound `clipAt`, the power `rsq` — and the aggregation `aggAt` takes
  the source scale as an argument, so that each stretch's statement names only what that stretch computes;
  `nrm` and `agg` are their composites by definition.
-/
import proofs.«126953_j15590731285057_1_alg».proof.Proof.Gen.KernelIdeal.Frame
import proofs.«126953_j15590731285057_1_alg».proof.Proof.Spec
import proofs.«126953_j15590731285057_1_alg».proof.Proof.KernelDefs
import Idealize.ShloMosaic.Lib.StableHlo.Run
import Idealize.ShloMosaic.Lib.Pipeline.Value
import Idealize.ShloMosaic.Lib.ValueIdx
import Idealize.ShloMosaic.Lib.ValueLayout
import proofs.«126953_j15590731285057_1_alg».proof.Proof.LibColumn

set_option maxRecDepth 16384

noncomputable section

namespace Cert.KernelIdeal.Host

open Cert.KernelIdeal Cert.KernelIdeal.Gen
open Idealize.ShloMosaic Idealize.ShloMosaic.TcCoe Idealize.SL.Sem
open Idealize.ShloMosaic.ValueIdx

/-- Nodes × features, one weight matrix, one bias, one number per node, one index per edge. -/
abbrev TN : Type := (⟨S100000x128, .f32⟩ : BufTy).Contents (Elt Ideal)
abbrev TD : Type := (⟨S100000, .f32⟩ : BufTy).Contents (Elt Ideal)
abbrev TE : Type := (⟨S1600000, .i32⟩ : BufTy).Contents (Elt Ideal)
abbrev TS : Type := (⟨S_, .f32⟩ : BufTy).Contents (Elt Ideal)

/-! ## The pieces of `nrm` and `agg` -/

/-- The number of edges naming each node: ones summed into the nodes the index list names. -/
def deg (idx : TE) : TD :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 idx)
    (broadcastInDim S1600000 ![] bcast_S_S1600000 (constant (F := Ideal) S_ .f32 0x3F800000#32))

/-- The entrywise maximum with a scalar bound. -/
def clipAt (k : TS) (d : TD) : TD := maximumf (F := Ideal) (φ := .f32) (broadcastInDim S100000 ![] bcast_S_S100000 (id k)) d

/-- The entrywise power −½. -/
def rsq (d : TD) : TD :=
  Host.powf (F := Ideal) d (broadcastInDim S100000 ![] bcast_S_S100000 (constant (F := Ideal) S_ .f32 0xBF000000#32))

/-- The f32 one, at the ideal instance. -/
def one : TS := constant (F := Ideal) S_ .f32 0x3F800000#32

theorem nrm_eq (idx : TE) : nrm idx = rsq (clipAt one (deg idx)) := rfl

/-- The aggregation with the source scale given. -/
def aggAt (x : TN) (ns : TD) (src dst : TE) : TN :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128
      (mulf x (broadcastInDim S100000x128 ![0, 1] bcast_S100000x1_S100000x128_0_1 (broadcastInDim S100000x1 ![0] bcast_S100000_S100000x1_0 ns)))
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

theorem agg_eq (x : TN) (src dst : TE) : agg x src dst = aggAt x (nrm src) src dst := rfl

section Stretches
variable (V : Valuation τ sig (Elt Ideal))

/-! ## What each stretch computes -/

theorem ops0_v3 {I : TE} (h : V (Proc.devRef .tc main_arg1) = I) :
    (StableHlo.after (hostOps0 (F := Ideal)) V (Proc.devRef .tc main_v3) : TD) = deg I := by
  subst h
  simp only [hostOps0]
  after_results_simp <;> rfl

theorem ops0_v6 {I : TE} (h : V (Proc.devRef .tc main_arg2) = I) :
    (StableHlo.after (hostOps0 (F := Ideal)) V (Proc.devRef .tc main_v6) : TD) = deg I := by
  subst h
  simp only [hostOps0]
  after_results_simp <;> rfl

theorem ops0_cst2 : (StableHlo.after (hostOps0 (F := Ideal)) V (Proc.devRef .tc main_cst_2) : TS) = one := by
  simp only [hostOps0]
  after_results_simp <;> rfl

theorem ops0_1_v7 {K : TS} {S : TD} (hK : V (Proc.devRef .tc main_cst_2) = K) (hS : V (Proc.devRef .tc main_v3) = S) :
    (StableHlo.after (hostOps0_1 (F := Ideal)) V (Proc.devRef .tc main_v7) : TD) = clipAt K S := by
  subst hK hS
  simp only [hostOps0_1]
  after_results_simp <;> rfl

theorem ops0_2_v9 {S : TD} (hS : V (Proc.devRef .tc main_v7) = S) :
    (StableHlo.after (hostOps0_2 (F := Ideal)) V (Proc.devRef .tc main_v9) : TD) = rsq S := by
  subst hS
  simp only [hostOps0_2]
  after_results_simp <;> rfl

theorem ops0_2_cst4 : (StableHlo.after (hostOps0_2 (F := Ideal)) V (Proc.devRef .tc main_cst_4) : TS) = one := by
  simp only [hostOps0_2]
  after_results_simp <;> rfl

theorem ops0_3_v10 {K : TS} {S : TD} (hK : V (Proc.devRef .tc main_cst_4) = K) (hS : V (Proc.devRef .tc main_v6) = S) :
    (StableHlo.after (hostOps0_3 (F := Ideal)) V (Proc.devRef .tc main_v10) : TD) = clipAt K S := by
  subst hK hS
  simp only [hostOps0_3]
  after_results_simp <;> rfl

theorem ops0_4_v12 {S : TD} (hS : V (Proc.devRef .tc main_v10) = S) :
    (StableHlo.after (hostOps0_4 (F := Ideal)) V (Proc.devRef .tc main_v12) : TD) = rsq S := by
  subst hS
  simp only [hostOps0_4]
  after_results_simp <;> rfl

theorem ops0_4_v25 {X : TN} {N : TD} {I J : TE} (hx : V (Proc.devRef .tc main_arg0) = X) (h9 : V (Proc.devRef .tc main_v9) = N)
    (h1 : V (Proc.devRef .tc main_arg1) = I) (h2 : V (Proc.devRef .tc main_arg2) = J) :
    (StableHlo.after (hostOps0_4 (F := Ideal)) V (Proc.devRef .tc main_v25) : TN) = aggAt X N I J := by
  subst hx h9 h1 h2
  simp only [hostOps0_4]
  after_results_simp <;> rfl

theorem ops0_4_v26 {B : (⟨S128, .f32⟩ : BufTy).Contents (Elt Ideal)} (hb : V (Proc.devRef .tc main_arg4) = B) (q : Fin 128) :
    (StableHlo.after (hostOps0_4 (F := Ideal)) V (Proc.devRef .tc main_v26) : (⟨S1x128, .f32⟩ : BufTy).Contents (Elt Ideal)) (ix2 (0 : Fin 1) q) = B (ix1 q) := by
  subst hb
  simp only [hostOps0_4]
  after_results_simp
  exact shapeCast_a_1a_apply _ _ 0 q

theorem ops0_4_v27 {S : TD} (hS : V (Proc.devRef .tc main_v10) = S) (p : Fin 100000) :
    (StableHlo.after (hostOps0_4 (F := Ideal)) V (Proc.devRef .tc main_v27) : (⟨S100000x1, .f32⟩ : BufTy).Contents (Elt Ideal)) (ix2 p (0 : Fin 1)) = rsq S (ix1 p) := by
  subst hS
  simp only [hostOps0_4]
  after_results_simp
  exact Cert.Lib.Column.shapeCast_a_a1_apply _ _ p 0

theorem ops1_v41 {X : TN} {N : TD} {I J : TE} (hx : V (Proc.devRef .tc main_v28) = X) (h9 : V (Proc.devRef .tc main_v9) = N)
    (h1 : V (Proc.devRef .tc main_arg1) = I) (h2 : V (Proc.devRef .tc main_arg2) = J) :
    (StableHlo.after (hostOps1 (F := Ideal)) V (Proc.devRef .tc main_v41) : TN) = aggAt X N I J := by
  subst hx h9 h1 h2
  simp only [hostOps1]
  after_results_simp <;> rfl

theorem ops1_v42 {B : (⟨S128, .f32⟩ : BufTy).Contents (Elt Ideal)} (hb : V (Proc.devRef .tc main_arg6) = B) (q : Fin 128) :
    (StableHlo.after (hostOps1 (F := Ideal)) V (Proc.devRef .tc main_v42) : (⟨S1x128, .f32⟩ : BufTy).Contents (Elt Ideal)) (ix2 (0 : Fin 1) q) = B (ix1 q) := by
  subst hb
  simp only [hostOps1]
  after_results_simp
  exact shapeCast_a_1a_apply _ _ 0 q

theorem ops1_v43 {N : TD} (hn : V (Proc.devRef .tc main_v12) = N) (p : Fin 100000) :
    (StableHlo.after (hostOps1 (F := Ideal)) V (Proc.devRef .tc main_v43) : (⟨S100000x1, .f32⟩ : BufTy).Contents (Elt Ideal)) (ix2 p (0 : Fin 1)) = N (ix1 p) := by
  subst hn
  simp only [hostOps1]
  after_results_simp
  exact Cert.Lib.Column.shapeCast_a_a1_apply _ _ p 0

theorem ops2_v57 {X : TN} {N : TD} {I J : TE} (hx : V (Proc.devRef .tc main_v44) = X) (h9 : V (Proc.devRef .tc main_v9) = N)
    (h1 : V (Proc.devRef .tc main_arg1) = I) (h2 : V (Proc.devRef .tc main_arg2) = J) :
    (StableHlo.after (hostOps2 (F := Ideal)) V (Proc.devRef .tc main_v57) : TN) = aggAt X N I J := by
  subst hx h9 h1 h2
  simp only [hostOps2]
  after_results_simp <;> rfl

theorem ops2_v58 {B : (⟨S128, .f32⟩ : BufTy).Contents (Elt Ideal)} (hb : V (Proc.devRef .tc main_arg8) = B) (q : Fin 128) :
    (StableHlo.after (hostOps2 (F := Ideal)) V (Proc.devRef .tc main_v58) : (⟨S1x128, .f32⟩ : BufTy).Contents (Elt Ideal)) (ix2 (0 : Fin 1) q) = B (ix1 q) := by
  subst hb
  simp only [hostOps2]
  after_results_simp
  exact shapeCast_a_1a_apply _ _ 0 q

theorem ops2_v59 {N : TD} (hn : V (Proc.devRef .tc main_v12) = N) (p : Fin 100000) :
    (StableHlo.after (hostOps2 (F := Ideal)) V (Proc.devRef .tc main_v59) : (⟨S100000x1, .f32⟩ : BufTy).Contents (Elt Ideal)) (ix2 p (0 : Fin 1)) = N (ix1 p) := by
  subst hn
  simp only [hostOps2]
  after_results_simp
  exact Cert.Lib.Column.shapeCast_a_a1_apply _ _ p 0

/-! ## What each stretch leaves alone -/

/-- A reference among a list is, as a device buffer, among the list's device buffers. -/
theorem written {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The values the first stretch writes. -/
abbrev wr0 : List (Ref sig .tc) := [main_cst, main_v0, main_cst_0, main_v1, main_v2, main_v3, main_cst_1, main_v4, main_v5, main_v6, main_cst_2]

theorem keep0 (r : Ref sig .tc) (hr : r ∉ wr0) :
    StableHlo.after (hostOps0 (F := Ideal)) V (Proc.devRef .tc r) = V (Proc.devRef .tc r) :=
  StableHlo.after_of_writes_sub (W := wr0) _ V (by
    simp only [hostOps0, List.Forall, StableHlo.nullary_writes, StableHlo.unary_writes, StableHlo.binary_writes,
      StableHlo.ternary_writes, StableHlo.reshape_writes]
    repeat' apply And.intro
    all_goals exact written (by decide)) hr

/-- The values the first lower bound writes. -/
abbrev wr0_1 : List (Ref sig .tc) := [main_call0_v0, main_call0_v1, main_v7]

theorem keep0_1 (r : Ref sig .tc) (hr : r ∉ wr0_1) :
    StableHlo.after (hostOps0_1 (F := Ideal)) V (Proc.devRef .tc r) = V (Proc.devRef .tc r) :=
  StableHlo.after_of_writes_sub (W := wr0_1) _ V (by
    simp only [hostOps0_1, List.Forall, StableHlo.nullary_writes, StableHlo.unary_writes, StableHlo.binary_writes,
      StableHlo.ternary_writes, StableHlo.reshape_writes]
    repeat' apply And.intro
    all_goals exact written (by decide)) hr

/-- The values the third stretch writes. -/
abbrev wr0_2 : List (Ref sig .tc) := [main_cst_3, main_v8, main_v9, main_cst_4]

theorem keep0_2 (r : Ref sig .tc) (hr : r ∉ wr0_2) :
    StableHlo.after (hostOps0_2 (F := Ideal)) V (Proc.devRef .tc r) = V (Proc.devRef .tc r) :=
  StableHlo.after_of_writes_sub (W := wr0_2) _ V (by
    simp only [hostOps0_2, List.Forall, StableHlo.nullary_writes, StableHlo.unary_writes, StableHlo.binary_writes,
      StableHlo.ternary_writes, StableHlo.reshape_writes]
    repeat' apply And.intro
    all_goals exact written (by decide)) hr

/-- The values the second lower bound writes. -/
abbrev wr0_3 : List (Ref sig .tc) := [main_call1_v0, main_call1_v1, main_v10]

theorem keep0_3 (r : Ref sig .tc) (hr : r ∉ wr0_3) :
    StableHlo.after (hostOps0_3 (F := Ideal)) V (Proc.devRef .tc r) = V (Proc.devRef .tc r) :=
  StableHlo.after_of_writes_sub (W := wr0_3) _ V (by
    simp only [hostOps0_3, List.Forall, StableHlo.nullary_writes, StableHlo.unary_writes, StableHlo.binary_writes,
      StableHlo.ternary_writes, StableHlo.reshape_writes]
    repeat' apply And.intro
    all_goals exact written (by decide)) hr

/-- The values the stretch before the first region writes. -/
abbrev wr0_4 : List (Ref sig .tc) := [main_cst_5, main_v11, main_v12, main_v13, main_v14, main_v15, main_c, main_v16, main_v17, main_c_6, main_v18, main_v19, main_v20, main_v21, main_v22, main_cst_7, main_v23, main_v24, main_v25, main_v26, main_v27]

theorem keep0_4 (r : Ref sig .tc) (hr : r ∉ wr0_4) :
    StableHlo.after (hostOps0_4 (F := Ideal)) V (Proc.devRef .tc r) = V (Proc.devRef .tc r) :=
  StableHlo.after_of_writes_sub (W := wr0_4) _ V (by
    simp only [hostOps0_4, List.Forall, StableHlo.nullary_writes, StableHlo.unary_writes, StableHlo.binary_writes,
      StableHlo.ternary_writes, StableHlo.reshape_writes]
    repeat' apply And.intro
    all_goals exact written (by decide)) hr

/-- The values the stretch before the second region writes. -/
abbrev wr1 : List (Ref sig .tc) := [main_v29, main_v30, main_v31, main_c_8, main_v32, main_v33, main_c_9, main_v34, main_v35, main_v36, main_v37, main_v38, main_cst_10, main_v39, main_v40, main_v41, main_v42, main_v43]

theorem keep1 (r : Ref sig .tc) (hr : r ∉ wr1) :
    StableHlo.after (hostOps1 (F := Ideal)) V (Proc.devRef .tc r) = V (Proc.devRef .tc r) :=
  StableHlo.after_of_writes_sub (W := wr1) _ V (by
    simp only [hostOps1, List.Forall, StableHlo.nullary_writes, StableHlo.unary_writes, StableHlo.binary_writes,
      StableHlo.ternary_writes, StableHlo.reshape_writes]
    repeat' apply And.intro
    all_goals exact written (by decide)) hr

/-- The values the stretch before the third region writes. -/
abbrev wr2 : List (Ref sig .tc) := [main_v45, main_v46, main_v47, main_c_11, main_v48, main_v49, main_c_12, main_v50, main_v51, main_v52, main_v53, main_v54, main_cst_13, main_v55, main_v56, main_v57, main_v58, main_v59]

theorem keep2 (r : Ref sig .tc) (hr : r ∉ wr2) :
    StableHlo.after (hostOps2 (F := Ideal)) V (Proc.devRef .tc r) = V (Proc.devRef .tc r) :=
  StableHlo.after_of_writes_sub (W := wr2) _ V (by
    simp only [hostOps2, List.Forall, StableHlo.nullary_writes, StableHlo.unary_writes, StableHlo.binary_writes,
      StableHlo.ternary_writes, StableHlo.reshape_writes]
    repeat' apply And.intro
    all_goals exact written (by decide)) hr

end Stretches

end Cert.KernelIdeal.Host

end
-- ==== Proof.Payload.lean ====
/-
  What one tile of a layer computes, entry by entry, on the extended reals.  A tile holds 10000 rows.  With `x0`
  the tile's rows of the aggregated messages, `x1` the weight matrix (output feature × input feature, entering
  the product transposed), `x2` the bias as one row, `x3` the rows' in-degree factors as one column and `x4` the
  rows of the layer's input, entry (r, q) of what the tile stores is

      max (((∑ₖ x0 (r, k) · x1 (q, k)) + x2 (0, q)) · x3 (r, 0) + x4 (r, q)) 0      (layers one and two)
            ((∑ₖ x0 (r, k) · x1 (q, k)) + x2 (0, q)) · x3 (r, 0)                      (the last layer).

  The matrix product into a zero accumulator is the plain sum over the contracted axis, re-indexed to `Fin 128`;
  the bias row and the factor column are broadcasts read at an index.
-/
import proofs.«126953_j15590731285057_1_alg».proof.Proof.Gen.KernelIdeal.Skeleton
import proofs.«126953_j15590731285057_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-- The tile product's dimension numbers: rows × contraction against contraction × columns. -/
abbrev TD := dot_S10000x128_S128x128_S10000x128_1_0_0_1_n_n

theorem lhs_row (i : S10000x128.Idx) (q : TD.contr.Idx) : (TD.lhsIdx i q 0).val = (i 0).val := by
  unfold DotDims.lhsIdx
  rw [dif_neg (show ¬(0 : Fin S10000x128.rank) ∈ TD.lhsBatch by decide),
    dif_pos (show (0 : Fin S10000x128.rank) ∈ TD.lhsNonContracting by decide)]
  rfl
theorem lhs_contr (i : S10000x128.Idx) (q : TD.contr.Idx) : (TD.lhsIdx i q 1).val = (q ⟨0, by decide⟩).val :=
  TD.lhsIdx_val_of_single rfl i q
theorem rhs_contr (i : S10000x128.Idx) (q : TD.contr.Idx) : (TD.rhsIdx i q 0).val = (q ⟨0, by decide⟩).val :=
  TD.rhsIdx_val_of_single rfl i q
theorem rhs_col (i : S10000x128.Idx) (q : TD.contr.Idx) : (TD.rhsIdx i q 1).val = (i 1).val := by
  unfold DotDims.rhsIdx
  rw [dif_neg (show ¬(1 : Fin S128x128.rank) ∈ TD.rhsBatch by decide),
    dif_pos (show (1 : Fin S128x128.rank) ∈ TD.rhsNonContracting by decide)]
  rfl

/-- The tile's product at (r, q): row r of the messages against row q of the weights. -/
theorem tile_matmul (x0 : FVec Ideal S10000x128 .f32) (x1 : FVec Ideal S128x128 .f32) (r : Fin 10000) (q : Fin 128) :
    matmul TD none (shapeCast S10000x128 x0 shapeCasts_S10000x128_S10000x128)
        (transpose S128x128 [1, 0] x1 transposes_S128x128_p1_0_S128x128) (constant S10000x128 .f32 0x00000000#32) (ix2 r q)
      = ∑ k : Fin 128, x0 (ix2 r k) * x1 (ix2 q k) := by
  rw [shapeCast_self]
  refine (Ideal.matmul_constant_zero_apply TD none x0 _ (ix2 r q)).trans ?_
  rw [← Equiv.sum_comp (contrEquiv1 TD 128 rfl rfl).symm]
  refine Finset.sum_congr rfl fun k _ => ?_
  have hk := contrEquiv1_symm_val TD 128 rfl rfl k
  have el : TD.lhsIdx (ix2 r q) ((contrEquiv1 TD 128 rfl rfl).symm k) = ix2 r k := funext fun a => Fin.ext (by
    match a with
    | ⟨0, _⟩ => exact lhs_row _ _
    | ⟨1, _⟩ => exact (lhs_contr _ _).trans hk)
  have er : TD.rhsIdx (ix2 r q) ((contrEquiv1 TD 128 rfl rfl).symm k) = ix2 k q := funext fun a => Fin.ext (by
    match a with
    | ⟨0, _⟩ => exact (rhs_contr _ _).trans hk
    | ⟨1, _⟩ => exact rhs_col _ _)
  rw [el, er, transpose_ix2_apply]

/-- The bias row spread over the tile's rows. -/
theorem bias_row (x2 : FVec Ideal S1x128 .f32) (r : Fin 10000) (q : Fin 128) :
    broadcastTo S10000x128 (shapeCast S1x128 x2 shapeCasts_S1x128_S1x128) broadcasts_S1x128_S10000x128 (ix2 r q)
      = x2 (ix2 (0 : Fin 1) q) := by
  rw [shapeCast_self]
  exact broadcastTo_1b_ab_apply x2 _ r q

/-- The in-degree factor column spread over the tile's columns. -/
theorem norm_col (x3 : FVec Ideal S10000x1 .f32) (r : Fin 10000) (q : Fin 128) :
    broadcastTo S10000x128 (shapeCast S10000x1 x3 shapeCasts_S10000x1_S10000x1) broadcasts_S10000x1_S10000x128 (ix2 r q)
      = x3 (ix2 r (0 : Fin 1)) := by
  rw [shapeCast_self]
  exact Cert.Lib.Column.broadcastTo_a1_ab_apply x3 _ r q

/-- The linear part of a tile at (r, q). -/
def linAt (x0 : FVec Ideal S10000x128 .f32) (x1 : FVec Ideal S128x128 .f32) (x2 : FVec Ideal S1x128 .f32)
    (x3 : FVec Ideal S10000x1 .f32) (r : Fin 10000) (q : Fin 128) : EReal :=
  ((∑ k : Fin 128, x0 (ix2 r k) * x1 (ix2 q k)) + x2 (ix2 (0 : Fin 1) q)) * x3 (ix2 r (0 : Fin 1))

theorem pay0_at (x0 : Vec Ideal S10000x128 .f32) (x1 : Vec Ideal S128x128 .f32) (x2 : Vec Ideal S1x128 .f32)
    (x3 : Vec Ideal S10000x1 .f32) (x4 : Vec Ideal S10000x128 .f32) (r : Fin 10000) (q : Fin 128) :
    k0_pay1 (F := Ideal) x0 x1 x2 x3 x4 (ix2 r q)
      = max (linAt x0 x1 x2 x3 r q + x4 (ix2 r q)) (Ideal.ofBits .f32 0x00000000#32) := by
  unfold k0_pay1 linAt
  dsimp only
  show max (((matmul (F := Ideal) TD none _ _ _ (ix2 r q) : EReal) + broadcastTo S10000x128 _ _ (ix2 r q)) * broadcastTo S10000x128 _ _ (ix2 r q) + x4 (ix2 r q)) _ = _
  rw [tile_matmul, bias_row, norm_col]
  rfl

theorem pay1_at (x0 : Vec Ideal S10000x128 .f32) (x1 : Vec Ideal S128x128 .f32) (x2 : Vec Ideal S1x128 .f32)
    (x3 : Vec Ideal S10000x1 .f32) (x4 : Vec Ideal S10000x128 .f32) (r : Fin 10000) (q : Fin 128) :
    k1_pay1 (F := Ideal) x0 x1 x2 x3 x4 (ix2 r q)
      = max (linAt x0 x1 x2 x3 r q + x4 (ix2 r q)) (Ideal.ofBits .f32 0x00000000#32) := by
  unfold k1_pay1 linAt
  dsimp only
  rw [shapeCast_self x4]
  show max (((matmul (F := Ideal) TD none _ _ _ (ix2 r q) : EReal) + broadcastTo S10000x128 _ _ (ix2 r q)) * broadcastTo S10000x128 _ _ (ix2 r q) + x4 (ix2 r q)) _ = _
  rw [tile_matmul, bias_row, norm_col]
  rfl

theorem pay2_at (x0 : Vec Ideal S10000x128 .f32) (x1 : Vec Ideal S128x128 .f32) (x2 : Vec Ideal S1x128 .f32)
    (x3 : Vec Ideal S10000x1 .f32) (r : Fin 10000) (q : Fin 128) :
    k2_pay1 (F := Ideal) x0 x1 x2 x3 (ix2 r q) = linAt x0 x1 x2 x3 r q := by
  unfold k2_pay1 linAt
  dsimp only
  show ((matmul (F := Ideal) TD none _ _ _ (ix2 r q) : EReal) + broadcastTo S10000x128 _ _ (ix2 r q)) * broadcastTo S10000x128 _ _ (ix2 r q) = _
  rw [tile_matmul, bias_row, norm_col]

end Cert.KernelIdeal.Payload

end
-- ==== Proof.Region0.lean ====
import proofs.«126953_j15590731285057_1_alg».proof.Proof.Gen.KernelIdeal.Frame
import proofs.«126953_j15590731285057_1_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«126953_j15590731285057_1_alg».proof.Proof.Payload
set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

namespace R0

/-! Layer 1's region.  Its grid has ten points; point `t` works on rows `10000·t … 10000·t + 9999`: the
    aggregated messages, the in-degree factors, the layer's input and the result move with the point, the weight matrix and the
    bias row stay.  What point `t` writes back is therefore block `t` of ONE function of the whole arrays, and the
    ten blocks tile the result. -/

theorem hz : (![0, 0] : Fin 2 → Nat) = fun _ => 0 := funext fun a => by fin_cases a <;> rfl

/-- The block index of every window at point `t`: row block `t` for the arrays that move, block 0 otherwise. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- A moving window's block at point `t`, read at (r, k), is its array at row `10000·t + r`. -/
theorem rows_0 (t : Fin cfg0.N) (r : Fin 10000) (k : Fin 128) (p : Fin 100000) (hp : p.val = t.val * 10000 + r.val) :
    (iblk0 V c 0 t : Vec Ideal S10000x128 .f32) (ix2 r k) = (V c main_v25 : S100000x128.Idx → EReal) (ix2 p k) := by
  obtain ⟨a0, a1, w0, w1, b0, b1, n0, n1, x0, x1, o0, o1⟩ := idx_facts t
  unfold iblk0
  rw [View.read_apply]
  show V c main_v25 _ = V c main_v25 _
  refine congrArg _ (funext fun a => Fin.ext ?_)
  match a with
  | ⟨0, _⟩ => show win0_0.index t (0 : Fin 2) * 10000 + 1 * r.val = p.val; rw [a0, hp]; omega
  | ⟨1, _⟩ => show win0_0.index t (1 : Fin 2) * 128 + 1 * k.val = k.val; rw [a1]; omega

/-- The weight matrix is one block. -/
theorem whole_1 (t : Fin cfg0.N) (q k : Fin 128) :
    (iblk0 V c 1 t : Vec Ideal S128x128 .f32) (ix2 q k) = (V c main_arg3 : S128x128.Idx → EReal) (ix2 q k) := by
  obtain ⟨a0, a1, w0, w1, b0, b1, n0, n1, x0, x1, o0, o1⟩ := idx_facts t
  unfold iblk0
  rw [View.read_apply]
  show V c main_arg3 _ = V c main_arg3 _
  refine congrArg _ (funext fun a => Fin.ext ?_)
  match a with
  | ⟨0, _⟩ => show win0_1.index t (0 : Fin 2) * 128 + 1 * q.val = q.val; rw [w0]; omega
  | ⟨1, _⟩ => show win0_1.index t (1 : Fin 2) * 128 + 1 * k.val = k.val; rw [w1]; omega

/-- The bias row is one block. -/
theorem whole_2 (t : Fin cfg0.N) (q : Fin 128) :
    (iblk0 V c 2 t : Vec Ideal S1x128 .f32) (ix2 (0 : Fin 1) q) = (V c main_v26 : S1x128.Idx → EReal) (ix2 (0 : Fin 1) q) := by
  obtain ⟨a0, a1, w0, w1, b0, b1, n0, n1, x0, x1, o0, o1⟩ := idx_facts t
  unfold iblk0
  rw [View.read_apply]
  show V c main_v26 _ = V c main_v26 _
  refine congrArg _ (funext fun a => Fin.ext ?_)
  match a with
  | ⟨0, _⟩ => show win0_2.index t (0 : Fin 2) * 1 + 1 * 0 = 0; rw [b0]
  | ⟨1, _⟩ => show win0_2.index t (1 : Fin 2) * 128 + 1 * q.val = q.val; rw [b1]; omega

/-- The factor column's block at point `t`, read at (r, 0), is the column at row `10000·t + r`. -/
theorem rows_3 (t : Fin cfg0.N) (r : Fin 10000) (p : Fin 100000) (hp : p.val = t.val * 10000 + r.val) :
    (iblk0 V c 3 t : Vec Ideal S10000x1 .f32) (ix2 r (0 : Fin 1)) = (V c main_v27 : S100000x1.Idx → EReal) (ix2 p (0 : Fin 1)) := by
  obtain ⟨a0, a1, w0, w1, b0, b1, n0, n1, x0, x1, o0, o1⟩ := idx_facts t
  unfold iblk0
  rw [View.read_apply]
  show V c main_v27 _ = V c main_v27 _
  refine congrArg _ (funext fun a => Fin.ext ?_)
  match a with
  | ⟨0, _⟩ => show win0_3.index t (0 : Fin 2) * 10000 + 1 * r.val = p.val; rw [n0, hp]; omega
  | ⟨1, _⟩ => show win0_3.index t (1 : Fin 2) * 1 + 1 * 0 = 0; rw [n1]

/-- The layer's input moves with the point like the messages. -/
theorem rows_4 (t : Fin cfg0.N) (r : Fin 10000) (k : Fin 128) (p : Fin 100000) (hp : p.val = t.val * 10000 + r.val) :
    (iblk0 V c 4 t : Vec Ideal S10000x128 .f32) (ix2 r k) = (V c main_arg0 : S100000x128.Idx → EReal) (ix2 p k) := by
  obtain ⟨a0, a1, w0, w1, b0, b1, n0, n1, x0, x1, o0, o1⟩ := idx_facts t
  unfold iblk0
  rw [View.read_apply]
  show V c main_arg0 _ = V c main_arg0 _
  refine congrArg _ (funext fun a => Fin.ext ?_)
  match a with
  | ⟨0, _⟩ => show win0_4.index t (0 : Fin 2) * 10000 + 1 * r.val = p.val; rw [x0, hp]; omega
  | ⟨1, _⟩ => show win0_4.index t (1 : Fin 2) * 128 + 1 * k.val = k.val; rw [x1]; omega

/-- WHAT POINT `t` WRITES BACK is block `t` of the layer's function of the whole arrays. -/
theorem flushed_eq (b : FVec Ideal Cert.Spec.SB .f32) (nrm : FVec Ideal Cert.Spec.SD .f32)
    (hb : ∀ q : Fin 128, V c main_v26 (ix2 (0 : Fin 1) q) = b (ix1 q))
    (hn : ∀ p : Fin 100000, V c main_v27 (ix2 p (0 : Fin 1)) = nrm (ix1 p)) (t : Fin cfg0.N) :
    (dat0 (F := Ideal) V c).flushed 5 t
      = ((cfg0.win 5).blk t).view.read (Elt Ideal) (Cert.Spec.dense (V c main_v25) (V c main_arg3) b nrm (V c main_arg0)) := by
  show (cfg0.win 5).cut (grid0.coords t) ((dat0 (F := Ideal) V c).after 5 t) = _
  rw [after0_5]
  unfold out0_5
  rw [View.canon_unit_zero hz]
  simp only [View.ld_unit_zero (S := S10000x128) hz, View.ld_unit_zero (S := S128x128) hz, View.ld_unit_zero (S := S1x128) hz, View.ld_unit_zero (S := S10000x1) hz]
  obtain ⟨a0, a1, w0, w1, b0, b1, n0, n1, x0, x1, o0, o1⟩ := idx_facts t
  have hN : cfg0.N = 10 := N_0
  have ht : t.val < 10 := hN ▸ t.isLt
  funext j
  obtain ⟨r, q, rfl⟩ : ∃ (r : Fin 10000) (q : Fin 128), j = ix2 r q :=
    ⟨⟨(j 0).val, (j 0).isLt⟩, ⟨(j 1).val, (j 1).isLt⟩, funext fun a => by match a with | ⟨0, _⟩ => rfl | ⟨1, _⟩ => rfl⟩
  have hr : r.val < 10000 := r.isLt
  obtain ⟨p, hp⟩ : ∃ p : Fin 100000, p.val = t.val * 10000 + r.val := ⟨⟨t.val * 10000 + r.val, by omega⟩, rfl⟩
  have he : ((cfg0.win 5).blk t).view.emb (ix2 r q) = (ix2 p q : S100000x128.Idx) := funext fun a => Fin.ext (by
    match a with
    | ⟨0, _⟩ => show win0_5.index t (0 : Fin 2) * 10000 + 1 * r.val = p.val; rw [o0, hp]; omega
    | ⟨1, _⟩ => show win0_5.index t (1 : Fin 2) * 128 + 1 * q.val = q.val; rw [o1]; omega)
  show k0_pay1 (F := Ideal) (iblk0 V c 0 t) (iblk0 V c 1 t) (iblk0 V c 2 t) (iblk0 V c 3 t) (iblk0 V c 4 t) (ix2 r q) = Cert.Spec.dense (V c main_v25) (V c main_arg3) b nrm (V c main_arg0) (((cfg0.win 5).blk t).view.emb (ix2 r q))
  rw [he, Cert.Spec.dense_apply]
  refine (Cert.KernelIdeal.Payload.pay0_at _ _ _ _ _ r q).trans ?_
  unfold Cert.KernelIdeal.Payload.linAt
  rw [whole_2 V c t q, hb q, rows_3 V c t r p hp, hn p, rows_4 V c t r q p hp]
  refine congrArg (fun s => max ((s + b (ix1 q)) * nrm (ix1 p) + V c main_arg0 (ix2 p q)) _) (Finset.sum_congr rfl fun k _ => ?_)
  rw [rows_0 V c t r k p hp, whole_1 V c t q k]

/-- An index of the result is in point `t`'s block iff each coordinate is in the block's range on its axis. -/
theorem mem_blk (t : Fin cfg0.N) (i : S100000x128.Idx) :
    i ∈ ((cfg0.win 5).blk t).view.set ↔ ∀ a : Fin 2, win0_5.index t a * S10000x128.size a ≤ (i a).val ∧ (i a).val < win0_5.index t a * S10000x128.size a + S10000x128.size a := by
  show i ∈ ((View.whole main_v28).slice (win0_5.rect t)).set ↔ _
  rw [View.set_slice_whole, Rect.mem_set_unit]
  exact Iff.rfl

/-- Row `n` of the result lies in the block of point `n / 10000`: the ten blocks tile the rows. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨a0, a1, w0, w1, b0, b1, n0, n1, x0, x1, o0, o1⟩ := idx_facts t
  refine ⟨t, flush0_5 t, ?_⟩
  rw [mem_blk]
  intro a
  match a with
  | ⟨0, _⟩ => show win0_5.index t (0 : Fin 2) * 10000 ≤ (i 0).val ∧ (i 0).val < win0_5.index t (0 : Fin 2) * 10000 + 10000; rw [o0, ht]; omega
  | ⟨1, _⟩ => show win0_5.index t (1 : Fin 2) * 128 ≤ (i 1).val ∧ (i 1).val < win0_5.index t (1 : Fin 2) * 128 + 128; rw [o1]; omega

end R0

/-- THE RESULT ARRAY after the region: the layer's function of the arrays the region was entered with. -/
theorem arr0 (b : FVec Ideal Cert.Spec.SB .f32) (nrm : FVec Ideal Cert.Spec.SD .f32)
    (hb : ∀ q : Fin 128, V c main_v26 (ix2 (0 : Fin 1) q) = b (ix1 q))
    (hn : ∀ p : Fin 100000, V c main_v27 (ix2 p (0 : Fin 1)) = nrm (ix1 p)) :
    (dat0 (F := Ideal) V c).arrAt 5 cfg0.N = Cert.Spec.dense (V c main_v25) (V c main_arg3) b nrm (V c main_arg0) :=
  (dat0 (F := Ideal) V c).arrAt_eq_of_cover 5 _ (fun t _ => R0.flushed_eq V c b nrm hb hn t) (R0.cover)

end Cert.KernelIdeal.Region

end
-- ==== Proof.Region1.lean ====
import proofs.«126953_j15590731285057_1_alg».proof.Proof.Gen.KernelIdeal.Frame
import proofs.«126953_j15590731285057_1_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«126953_j15590731285057_1_alg».proof.Proof.Payload
set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

namespace R1

/-! Layer 2's region.  Its grid has ten points; point `t` works on rows `10000·t … 10000·t + 9999`: the
    aggregated messages, the in-degree factors, the layer's input and the result move with the point, the weight matrix and the
    bias row stay.  What point `t` writes back is therefore block `t` of ONE function of the whole arrays, and the
    ten blocks tile the result. -/

theorem hz : (![0, 0] : Fin 2 → Nat) = fun _ => 0 := funext fun a => by fin_cases a <;> rfl

/-- The block index of every window at point `t`: row block `t` for the arrays that move, block 0 otherwise. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- A moving window's block at point `t`, read at (r, k), is its array at row `10000·t + r`. -/
theorem rows_0 (t : Fin cfg1.N) (r : Fin 10000) (k : Fin 128) (p : Fin 100000) (hp : p.val = t.val * 10000 + r.val) :
    (iblk1 V c 0 t : Vec Ideal S10000x128 .f32) (ix2 r k) = (V c main_v41 : S100000x128.Idx → EReal) (ix2 p k) := by
  obtain ⟨a0, a1, w0, w1, b0, b1, n0, n1, x0, x1, o0, o1⟩ := idx_facts t
  unfold iblk1
  rw [View.read_apply]
  show V c main_v41 _ = V c main_v41 _
  refine congrArg _ (funext fun a => Fin.ext ?_)
  match a with
  | ⟨0, _⟩ => show win1_0.index t (0 : Fin 2) * 10000 + 1 * r.val = p.val; rw [a0, hp]; omega
  | ⟨1, _⟩ => show win1_0.index t (1 : Fin 2) * 128 + 1 * k.val = k.val; rw [a1]; omega

/-- The weight matrix is one block. -/
theorem whole_1 (t : Fin cfg1.N) (q k : Fin 128) :
    (iblk1 V c 1 t : Vec Ideal S128x128 .f32) (ix2 q k) = (V c main_arg5 : S128x128.Idx → EReal) (ix2 q k) := by
  obtain ⟨a0, a1, w0, w1, b0, b1, n0, n1, x0, x1, o0, o1⟩ := idx_facts t
  unfold iblk1
  rw [View.read_apply]
  show V c main_arg5 _ = V c main_arg5 _
  refine congrArg _ (funext fun a => Fin.ext ?_)
  match a with
  | ⟨0, _⟩ => show win1_1.index t (0 : Fin 2) * 128 + 1 * q.val = q.val; rw [w0]; omega
  | ⟨1, _⟩ => show win1_1.index t (1 : Fin 2) * 128 + 1 * k.val = k.val; rw [w1]; omega

/-- The bias row is one block. -/
theorem whole_2 (t : Fin cfg1.N) (q : Fin 128) :
    (iblk1 V c 2 t : Vec Ideal S1x128 .f32) (ix2 (0 : Fin 1) q) = (V c main_v42 : S1x128.Idx → EReal) (ix2 (0 : Fin 1) q) := by
  obtain ⟨a0, a1, w0, w1, b0, b1, n0, n1, x0, x1, o0, o1⟩ := idx_facts t
  unfold iblk1
  rw [View.read_apply]
  show V c main_v42 _ = V c main_v42 _
  refine congrArg _ (funext fun a => Fin.ext ?_)
  match a with
  | ⟨0, _⟩ => show win1_2.index t (0 : Fin 2) * 1 + 1 * 0 = 0; rw [b0]
  | ⟨1, _⟩ => show win1_2.index t (1 : Fin 2) * 128 + 1 * q.val = q.val; rw [b1]; omega

/-- The factor column's block at point `t`, read at (r, 0), is the column at row `10000·t + r`. -/
theorem rows_3 (t : Fin cfg1.N) (r : Fin 10000) (p : Fin 100000) (hp : p.val = t.val * 10000 + r.val) :
    (iblk1 V c 3 t : Vec Ideal S10000x1 .f32) (ix2 r (0 : Fin 1)) = (V c main_v43 : S100000x1.Idx → EReal) (ix2 p (0 : Fin 1)) := by
  obtain ⟨a0, a1, w0, w1, b0, b1, n0, n1, x0, x1, o0, o1⟩ := idx_facts t
  unfold iblk1
  rw [View.read_apply]
  show V c main_v43 _ = V c main_v43 _
  refine congrArg _ (funext fun a => Fin.ext ?_)
  match a with
  | ⟨0, _⟩ => show win1_3.index t (0 : Fin 2) * 10000 + 1 * r.val = p.val; rw [n0, hp]; omega
  | ⟨1, _⟩ => show win1_3.index t (1 : Fin 2) * 1 + 1 * 0 = 0; rw [n1]

/-- The layer's input moves with the point like the messages. -/
theorem rows_4 (t : Fin cfg1.N) (r : Fin 10000) (k : Fin 128) (p : Fin 100000) (hp : p.val = t.val * 10000 + r.val) :
    (iblk1 V c 4 t : Vec Ideal S10000x128 .f32) (ix2 r k) = (V c main_v28 : S100000x128.Idx → EReal) (ix2 p k) := by
  obtain ⟨a0, a1, w0, w1, b0, b1, n0, n1, x0, x1, o0, o1⟩ := idx_facts t
  unfold iblk1
  rw [View.read_apply]
  show V c main_v28 _ = V c main_v28 _
  refine congrArg _ (funext fun a => Fin.ext ?_)
  match a with
  | ⟨0, _⟩ => show win1_4.index t (0 : Fin 2) * 10000 + 1 * r.val = p.val; rw [x0, hp]; omega
  | ⟨1, _⟩ => show win1_4.index t (1 : Fin 2) * 128 + 1 * k.val = k.val; rw [x1]; omega

/-- WHAT POINT `t` WRITES BACK is block `t` of the layer's function of the whole arrays. -/
theorem flushed_eq (b : FVec Ideal Cert.Spec.SB .f32) (nrm : FVec Ideal Cert.Spec.SD .f32)
    (hb : ∀ q : Fin 128, V c main_v42 (ix2 (0 : Fin 1) q) = b (ix1 q))
    (hn : ∀ p : Fin 100000, V c main_v43 (ix2 p (0 : Fin 1)) = nrm (ix1 p)) (t : Fin cfg1.N) :
    (dat1 (F := Ideal) V c).flushed 5 t
      = ((cfg1.win 5).blk t).view.read (Elt Ideal) (Cert.Spec.dense (V c main_v41) (V c main_arg5) b nrm (V c main_v28)) := by
  show (cfg1.win 5).cut (grid1.coords t) ((dat1 (F := Ideal) V c).after 5 t) = _
  rw [after1_5]
  unfold out1_5
  rw [View.canon_unit_zero hz]
  simp only [View.ld_unit_zero (S := S10000x128) hz, View.ld_unit_zero (S := S128x128) hz, View.ld_unit_zero (S := S1x128) hz, View.ld_unit_zero (S := S10000x1) hz]
  obtain ⟨a0, a1, w0, w1, b0, b1, n0, n1, x0, x1, o0, o1⟩ := idx_facts t
  have hN : cfg1.N = 10 := N_1
  have ht : t.val < 10 := hN ▸ t.isLt
  funext j
  obtain ⟨r, q, rfl⟩ : ∃ (r : Fin 10000) (q : Fin 128), j = ix2 r q :=
    ⟨⟨(j 0).val, (j 0).isLt⟩, ⟨(j 1).val, (j 1).isLt⟩, funext fun a => by match a with | ⟨0, _⟩ => rfl | ⟨1, _⟩ => rfl⟩
  have hr : r.val < 10000 := r.isLt
  obtain ⟨p, hp⟩ : ∃ p : Fin 100000, p.val = t.val * 10000 + r.val := ⟨⟨t.val * 10000 + r.val, by omega⟩, rfl⟩
  have he : ((cfg1.win 5).blk t).view.emb (ix2 r q) = (ix2 p q : S100000x128.Idx) := funext fun a => Fin.ext (by
    match a with
    | ⟨0, _⟩ => show win1_5.index t (0 : Fin 2) * 10000 + 1 * r.val = p.val; rw [o0, hp]; omega
    | ⟨1, _⟩ => show win1_5.index t (1 : Fin 2) * 128 + 1 * q.val = q.val; rw [o1]; omega)
  show k1_pay1 (F := Ideal) (iblk1 V c 0 t) (iblk1 V c 1 t) (iblk1 V c 2 t) (iblk1 V c 3 t) (iblk1 V c 4 t) (ix2 r q) = Cert.Spec.dense (V c main_v41) (V c main_arg5) b nrm (V c main_v28) (((cfg1.win 5).blk t).view.emb (ix2 r q))
  rw [he, Cert.Spec.dense_apply]
  refine (Cert.KernelIdeal.Payload.pay1_at _ _ _ _ _ r q).trans ?_
  unfold Cert.KernelIdeal.Payload.linAt
  rw [whole_2 V c t q, hb q, rows_3 V c t r p hp, hn p, rows_4 V c t r q p hp]
  refine congrArg (fun s => max ((s + b (ix1 q)) * nrm (ix1 p) + V c main_v28 (ix2 p q)) _) (Finset.sum_congr rfl fun k _ => ?_)
  rw [rows_0 V c t r k p hp, whole_1 V c t q k]

/-- An index of the result is in point `t`'s block iff each coordinate is in the block's range on its axis. -/
theorem mem_blk (t : Fin cfg1.N) (i : S100000x128.Idx) :
    i ∈ ((cfg1.win 5).blk t).view.set ↔ ∀ a : Fin 2, win1_5.index t a * S10000x128.size a ≤ (i a).val ∧ (i a).val < win1_5.index t a * S10000x128.size a + S10000x128.size a := by
  show i ∈ ((View.whole main_v44).slice (win1_5.rect t)).set ↔ _
  rw [View.set_slice_whole, Rect.mem_set_unit]
  exact Iff.rfl

/-- Row `n` of the result lies in the block of point `n / 10000`: the ten blocks tile the rows. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨a0, a1, w0, w1, b0, b1, n0, n1, x0, x1, o0, o1⟩ := idx_facts t
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; rw [o0, ht]; omega
  | ⟨1, _⟩ => show win1_5.index t (1 : Fin 2) * 128 ≤ (i 1).val ∧ (i 1).val < win1_5.index t (1 : Fin 2) * 128 + 128; rw [o1]; omega

end R1

/-- THE RESULT ARRAY after the region: the layer's function of the arrays the region was entered with. -/
theorem arr1 (b : FVec Ideal Cert.Spec.SB .f32) (nrm : FVec Ideal Cert.Spec.SD .f32)
    (hb : ∀ q : Fin 128, V c main_v42 (ix2 (0 : Fin 1) q) = b (ix1 q))
    (hn : ∀ p : Fin 100000, V c main_v43 (ix2 p (0 : Fin 1)) = nrm (ix1 p)) :
    (dat1 (F := Ideal) V c).arrAt 5 cfg1.N = Cert.Spec.dense (V c main_v41) (V c main_arg5) b nrm (V c main_v28) :=
  (dat1 (F := Ideal) V c).arrAt_eq_of_cover 5 _ (fun t _ => R1.flushed_eq V c b nrm hb hn t) (R1.cover)

end Cert.KernelIdeal.Region

end
-- ==== Proof.Region2.lean ====
import proofs.«126953_j15590731285057_1_alg».proof.Proof.Gen.KernelIdeal.Frame
import proofs.«126953_j15590731285057_1_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«126953_j15590731285057_1_alg».proof.Proof.Payload
set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

namespace R2

/-! Layer 3's region.  Its grid has ten points; point `t` works on rows `10000·t … 10000·t + 9999`: the
    aggregated messages, the in-degree factors and the result move with the point, the weight matrix and the
    bias row stay.  What point `t` writes back is therefore block `t` of ONE function of the whole arrays, and the
    ten blocks tile the result. -/

theorem hz : (![0, 0] : Fin 2 → Nat) = fun _ => 0 := funext fun a => by fin_cases a <;> rfl

/-- The block index of every window at point `t`: row block `t` for the arrays that move, block 0 otherwise. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- A moving window's block at point `t`, read at (r, k), is its array at row `10000·t + r`. -/
theorem rows_0 (t : Fin cfg2.N) (r : Fin 10000) (k : Fin 128) (p : Fin 100000) (hp : p.val = t.val * 10000 + r.val) :
    (iblk2 V c 0 t : Vec Ideal S10000x128 .f32) (ix2 r k) = (V c main_v57 : S100000x128.Idx → EReal) (ix2 p k) := by
  obtain ⟨a0, a1, w0, w1, b0, b1, n0, n1, o0, o1⟩ := idx_facts t
  unfold iblk2
  rw [View.read_apply]
  show V c main_v57 _ = V c main_v57 _
  refine congrArg _ (funext fun a => Fin.ext ?_)
  match a with
  | ⟨0, _⟩ => show win2_0.index t (0 : Fin 2) * 10000 + 1 * r.val = p.val; rw [a0, hp]; omega
  | ⟨1, _⟩ => show win2_0.index t (1 : Fin 2) * 128 + 1 * k.val = k.val; rw [a1]; omega

/-- The weight matrix is one block. -/
theorem whole_1 (t : Fin cfg2.N) (q k : Fin 128) :
    (iblk2 V c 1 t : Vec Ideal S128x128 .f32) (ix2 q k) = (V c main_arg7 : S128x128.Idx → EReal) (ix2 q k) := by
  obtain ⟨a0, a1, w0, w1, b0, b1, n0, n1, o0, o1⟩ := idx_facts t
  unfold iblk2
  rw [View.read_apply]
  show V c main_arg7 _ = V c main_arg7 _
  refine congrArg _ (funext fun a => Fin.ext ?_)
  match a with
  | ⟨0, _⟩ => show win2_1.index t (0 : Fin 2) * 128 + 1 * q.val = q.val; rw [w0]; omega
  | ⟨1, _⟩ => show win2_1.index t (1 : Fin 2) * 128 + 1 * k.val = k.val; rw [w1]; omega

/-- The bias row is one block. -/
theorem whole_2 (t : Fin cfg2.N) (q : Fin 128) :
    (iblk2 V c 2 t : Vec Ideal S1x128 .f32) (ix2 (0 : Fin 1) q) = (V c main_v58 : S1x128.Idx → EReal) (ix2 (0 : Fin 1) q) := by
  obtain ⟨a0, a1, w0, w1, b0, b1, n0, n1, o0, o1⟩ := idx_facts t
  unfold iblk2
  rw [View.read_apply]
  show V c main_v58 _ = V c main_v58 _
  refine congrArg _ (funext fun a => Fin.ext ?_)
  match a with
  | ⟨0, _⟩ => show win2_2.index t (0 : Fin 2) * 1 + 1 * 0 = 0; rw [b0]
  | ⟨1, _⟩ => show win2_2.index t (1 : Fin 2) * 128 + 1 * q.val = q.val; rw [b1]; omega

/-- The factor column's block at point `t`, read at (r, 0), is the column at row `10000·t + r`. -/
theorem rows_3 (t : Fin cfg2.N) (r : Fin 10000) (p : Fin 100000) (hp : p.val = t.val * 10000 + r.val) :
    (iblk2 V c 3 t : Vec Ideal S10000x1 .f32) (ix2 r (0 : Fin 1)) = (V c main_v59 : S100000x1.Idx → EReal) (ix2 p (0 : Fin 1)) := by
  obtain ⟨a0, a1, w0, w1, b0, b1, n0, n1, o0, o1⟩ := idx_facts t
  unfold iblk2
  rw [View.read_apply]
  show V c main_v59 _ = V c main_v59 _
  refine congrArg _ (funext fun a => Fin.ext ?_)
  match a with
  | ⟨0, _⟩ => show win2_3.index t (0 : Fin 2) * 10000 + 1 * r.val = p.val; rw [n0, hp]; omega
  | ⟨1, _⟩ => show win2_3.index t (1 : Fin 2) * 1 + 1 * 0 = 0; rw [n1]

/-- WHAT POINT `t` WRITES BACK is block `t` of the layer's function of the whole arrays. -/
theorem flushed_eq (b : FVec Ideal Cert.Spec.SB .f32) (nrm : FVec Ideal Cert.Spec.SD .f32)
    (hb : ∀ q : Fin 128, V c main_v58 (ix2 (0 : Fin 1) q) = b (ix1 q))
    (hn : ∀ p : Fin 100000, V c main_v59 (ix2 p (0 : Fin 1)) = nrm (ix1 p)) (t : Fin cfg2.N) :
    (dat2 (F := Ideal) V c).flushed 4 t
      = ((cfg2.win 4).blk t).view.read (Elt Ideal) (Cert.Spec.lin (V c main_v57) (V c main_arg7) b nrm) := by
  show (cfg2.win 4).cut (grid2.coords t) ((dat2 (F := Ideal) V c).after 4 t) = _
  rw [after2_4]
  unfold out2_4
  rw [View.canon_unit_zero hz]
  simp only [View.ld_unit_zero (S := S10000x128) hz, View.ld_unit_zero (S := S128x128) hz, View.ld_unit_zero (S := S1x128) hz, View.ld_unit_zero (S := S10000x1) hz]
  obtain ⟨a0, a1, w0, w1, b0, b1, n0, n1, o0, o1⟩ := idx_facts t
  have hN : cfg2.N = 10 := N_2
  have ht : t.val < 10 := hN ▸ t.isLt
  funext j
  obtain ⟨r, q, rfl⟩ : ∃ (r : Fin 10000) (q : Fin 128), j = ix2 r q :=
    ⟨⟨(j 0).val, (j 0).isLt⟩, ⟨(j 1).val, (j 1).isLt⟩, funext fun a => by match a with | ⟨0, _⟩ => rfl | ⟨1, _⟩ => rfl⟩
  have hr : r.val < 10000 := r.isLt
  obtain ⟨p, hp⟩ : ∃ p : Fin 100000, p.val = t.val * 10000 + r.val := ⟨⟨t.val * 10000 + r.val, by omega⟩, rfl⟩
  have he : ((cfg2.win 4).blk t).view.emb (ix2 r q) = (ix2 p q : S100000x128.Idx) := funext fun a => Fin.ext (by
    match a with
    | ⟨0, _⟩ => show win2_4.index t (0 : Fin 2) * 10000 + 1 * r.val = p.val; rw [o0, hp]; omega
    | ⟨1, _⟩ => show win2_4.index t (1 : Fin 2) * 128 + 1 * q.val = q.val; rw [o1]; omega)
  show k2_pay1 (F := Ideal) (iblk2 V c 0 t) (iblk2 V c 1 t) (iblk2 V c 2 t) (iblk2 V c 3 t) (ix2 r q) = Cert.Spec.lin (V c main_v57) (V c main_arg7) b nrm (((cfg2.win 4).blk t).view.emb (ix2 r q))
  rw [he, Cert.Spec.lin_apply]
  refine (Cert.KernelIdeal.Payload.pay2_at _ _ _ _ r q).trans ?_
  unfold Cert.KernelIdeal.Payload.linAt
  rw [whole_2 V c t q, hb q, rows_3 V c t r p hp, hn p]
  refine congrArg (fun s => (s + b (ix1 q)) * nrm (ix1 p)) (Finset.sum_congr rfl fun k _ => ?_)
  rw [rows_0 V c t r k p hp, whole_1 V c t q k]

/-- An index of the result is in point `t`'s block iff each coordinate is in the block's range on its axis. -/
theorem mem_blk (t : Fin cfg2.N) (i : S100000x128.Idx) :
    i ∈ ((cfg2.win 4).blk t).view.set ↔ ∀ a : Fin 2, win2_4.index t a * S10000x128.size a ≤ (i a).val ∧ (i a).val < win2_4.index t a * S10000x128.size a + S10000x128.size a := by
  show i ∈ ((View.whole main_v60).slice (win2_4.rect t)).set ↔ _
  rw [View.set_slice_whole, Rect.mem_set_unit]
  exact Iff.rfl

/-- Row `n` of the result lies in the block of point `n / 10000`: the ten blocks tile the rows. -/
theorem cover (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨a0, a1, w0, w1, b0, b1, n0, n1, o0, o1⟩ := idx_facts t
  refine ⟨t, flush2_4 t, ?_⟩
  rw [mem_blk]
  intro a
  match a with
  | ⟨0, _⟩ => show win2_4.index t (0 : Fin 2) * 10000 ≤ (i 0).val ∧ (i 0).val < win2_4.index t (0 : Fin 2) * 10000 + 10000; rw [o0, ht]; omega
  | ⟨1, _⟩ => show win2_4.index t (1 : Fin 2) * 128 ≤ (i 1).val ∧ (i 1).val < win2_4.index t (1 : Fin 2) * 128 + 128; rw [o1]; omega

end R2

/-- THE RESULT ARRAY after the region: the layer's function of the arrays the region was entered with. -/
theorem arr2 (b : FVec Ideal Cert.Spec.SB .f32) (nrm : FVec Ideal Cert.Spec.SD .f32)
    (hb : ∀ q : Fin 128, V c main_v58 (ix2 (0 : Fin 1) q) = b (ix1 q))
    (hn : ∀ p : Fin 100000, V c main_v59 (ix2 p (0 : Fin 1)) = nrm (ix1 p)) :
    (dat2 (F := Ideal) V c).arrAt 4 cfg2.N = Cert.Spec.lin (V c main_v57) (V c main_arg7) b nrm :=
  (dat2 (F := Ideal) V c).arrAt_eq_of_cover 4 _ (fun t _ => R2.flushed_eq V c b nrm hb hn t) (R2.cover)

end Cert.KernelIdeal.Region

end
-- ==== Proof.KernelHost.lean ====
/-
  The kernel program's result buffer as a function of what it was launched with: the fold of buffer contents
  through @main (`W0` … `W10` of the generated frame module) read at the buffers the three regions take, each
  region's result by its own theorem, the host stretches between them by the stretch lemmas.  The result is the
  three graph-convolution layers `gcn` of the nine arguments.
-/
import proofs.«126953_j15590731285057_1_alg».proof.Proof.KernelHost0
import proofs.«126953_j15590731285057_1_alg».proof.Proof.Region0
import proofs.«126953_j15590731285057_1_alg».proof.Proof.Region1
import proofs.«126953_j15590731285057_1_alg».proof.Proof.Region2

set_option maxRecDepth 16384

noncomputable section

namespace Cert.KernelIdeal.Host

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

/-- What a buffer of core `c` was launched with. -/
abbrev A (b : Ref sig .tc) : Buf (Elt Ideal) ((c : Thread nD τ).loc b) := m ((c : Thread nD τ).loc b)

/-- The launch contents are the launch memory. -/
theorem W0_at (b : Ref sig .tc) : W0 (F := Ideal) m ρ c (Proc.devRef .tc b) = A m c b := rfl

/-- The two entrywise specifications respect equality of their array arguments. -/
theorem dense_congr {a a' : FVec Ideal Cert.Spec.SN .f32} {W W' : FVec Ideal Cert.Spec.SW .f32} {b : FVec Ideal Cert.Spec.SB .f32}
    {n : FVec Ideal Cert.Spec.SD .f32} {x x' : FVec Ideal Cert.Spec.SN .f32} (ha : a = a') (hW : W = W') (hx : x = x') :
    Cert.Spec.dense a W b n x = Cert.Spec.dense a' W' b n x' := by subst ha hW hx; rfl
theorem lin_congr {a a' : FVec Ideal Cert.Spec.SN .f32} {W W' : FVec Ideal Cert.Spec.SW .f32} {b : FVec Ideal Cert.Spec.SB .f32}
    {n : FVec Ideal Cert.Spec.SD .f32} (ha : a = a') (hW : W = W') :
    Cert.Spec.lin a W b n = Cert.Spec.lin a' W' b n := by subst ha hW; rfl

/-! ## Up to region 0's entry -/

/-- No operation of the five stretches before region 0 writes the buffer. -/
abbrev Unwritten5 (r : Ref sig .tc) : Prop := r ∉ wr0 ∧ r ∉ wr0_1 ∧ r ∉ wr0_2 ∧ r ∉ wr0_3 ∧ r ∉ wr0_4

theorem W1_v3 : (W1 (F := Ideal) m ρ c (Proc.devRef .tc main_v3) : TD) = deg (A m c main_arg1) :=
  ops0_v3 (W0 m ρ c) (W0_at m ρ c main_arg1)
theorem W1_v6 : (W1 (F := Ideal) m ρ c (Proc.devRef .tc main_v6) : TD) = deg (A m c main_arg2) :=
  ops0_v6 (W0 m ρ c) (W0_at m ρ c main_arg2)
theorem W1_cst2 : (W1 (F := Ideal) m ρ c (Proc.devRef .tc main_cst_2) : TS) = one := ops0_cst2 (W0 m ρ c)
theorem W2_v7 : (W2 (F := Ideal) m ρ c (Proc.devRef .tc main_v7) : TD) = clipAt one (deg (A m c main_arg1)) :=
  ops0_1_v7 (W1 m ρ c) (W1_cst2 m ρ c) (W1_v3 m ρ c)
theorem W3_v9 : (W3 (F := Ideal) m ρ c (Proc.devRef .tc main_v9) : TD) = nrm (A m c main_arg1) :=
  (ops0_2_v9 (W2 m ρ c) (W2_v7 m ρ c)).trans (nrm_eq _).symm
theorem W3_cst4 : (W3 (F := Ideal) m ρ c (Proc.devRef .tc main_cst_4) : TS) = one := ops0_2_cst4 (W2 m ρ c)
theorem W3_v6 : (W3 (F := Ideal) m ρ c (Proc.devRef .tc main_v6) : TD) = deg (A m c main_arg2) :=
  (keep0_2 (W2 m ρ c) main_v6 (by decide)).trans ((keep0_1 (W1 m ρ c) main_v6 (by decide)).trans (W1_v6 m ρ c))
theorem W4_v10 : (W4 (F := Ideal) m ρ c (Proc.devRef .tc main_v10) : TD) = clipAt one (deg (A m c main_arg2)) :=
  ops0_3_v10 (W3 m ρ c) (W3_cst4 m ρ c) (W3_v6 m ρ c)
theorem W4_v9 : (W4 (F := Ideal) m ρ c (Proc.devRef .tc main_v9) : TD) = nrm (A m c main_arg1) :=
  (keep0_3 (W3 m ρ c) main_v9 (by decide)).trans (W3_v9 m ρ c)
theorem W4_keep (r : Ref sig .tc) (h : Unwritten5 r) : W4 (F := Ideal) m ρ c (Proc.devRef .tc r) = A m c r :=
  (keep0_3 (W3 m ρ c) r h.2.2.2.1).trans ((keep0_2 (W2 m ρ c) r h.2.2.1).trans ((keep0_1 (W1 m ρ c) r h.2.1).trans
    ((keep0 (W0 m ρ c) r h.1).trans (W0_at m ρ c r))))
theorem W5_keep (r : Ref sig .tc) (h : Unwritten5 r) : W5 (F := Ideal) m ρ c (Proc.devRef .tc r) = A m c r :=
  (keep0_4 (W4 m ρ c) r h.2.2.2.2).trans (W4_keep m ρ c r h)
theorem W5_v9 : (W5 (F := Ideal) m ρ c (Proc.devRef .tc main_v9) : TD) = nrm (A m c main_arg1) :=
  (keep0_4 (W4 m ρ c) main_v9 (by decide)).trans (W4_v9 m ρ c)
theorem W5_v12 : (W5 (F := Ideal) m ρ c (Proc.devRef .tc main_v12) : TD) = nrm (A m c main_arg2) :=
  (ops0_4_v12 (W4 m ρ c) (W4_v10 m ρ c)).trans (nrm_eq _).symm
theorem W5_v25 : (W5 (F := Ideal) m ρ c (Proc.devRef .tc main_v25) : TN) = agg (A m c main_arg0) (A m c main_arg1) (A m c main_arg2) :=
  (ops0_4_v25 (W4 m ρ c) (W4_keep m ρ c main_arg0 (by decide)) (W4_v9 m ρ c) (W4_keep m ρ c main_arg1 (by decide))
    (W4_keep m ρ c main_arg2 (by decide))).trans (agg_eq _ _ _).symm
theorem W5_v26 (q : Fin 128) :
    (W5 (F := Ideal) m ρ c (Proc.devRef .tc main_v26) : (⟨S1x128, .f32⟩ : BufTy).Contents (Elt Ideal)) (ix2 (0 : Fin 1) q)
      = (A m c main_arg4 : (⟨S128, .f32⟩ : BufTy).Contents (Elt Ideal)) (ix1 q) :=
  ops0_4_v26 (W4 m ρ c) (W4_keep m ρ c main_arg4 (by decide)) q
theorem W5_v27 (p : Fin 100000) :
    (W5 (F := Ideal) m ρ c (Proc.devRef .tc main_v27) : (⟨S100000x1, .f32⟩ : BufTy).Contents (Elt Ideal)) (ix2 p (0 : Fin 1))
      = nrm (A m c main_arg2) (ix1 p) :=
  (ops0_4_v27 (W4 m ρ c) (W4_v10 m ρ c) p).trans (congrFun (nrm_eq _).symm _)

/-! ## Region 0 and the stretch after it -/

/-- The first layer: dense, residual, rectifier. -/
def layer1 : TN :=
  Cert.Spec.dense (agg (A m c main_arg0) (A m c main_arg1) (A m c main_arg2)) (A m c main_arg3) (A m c main_arg4) (nrm (A m c main_arg2)) (A m c main_arg0)

theorem W6_v28 : (W6 (F := Ideal) m ρ c (Proc.devRef .tc main_v28) : TN) = layer1 m c :=
  (W6_arr m ρ c 5).trans ((Region.arr0 (V5 m ρ) c (A m c main_arg4) (nrm (A m c main_arg2)) (W5_v26 m ρ c) (W5_v27 m ρ c)).trans
    (dense_congr (W5_v25 m ρ c) (W5_keep m ρ c main_arg3 (by decide)) (W5_keep m ρ c main_arg0 (by decide))))
theorem W6_keep (r : Ref sig .tc) (hr : ∀ w, Pipeline.arrRef spec0 w ≠ r) (h : Unwritten5 r) :
    W6 (F := Ideal) m ρ c (Proc.devRef .tc r) = A m c r :=
  (W6_of_ne m ρ c r hr).trans (W5_keep m ρ c r h)
theorem W6_v9 : (W6 (F := Ideal) m ρ c (Proc.devRef .tc main_v9) : TD) = nrm (A m c main_arg1) :=
  (W6_of_ne m ρ c main_v9 (by decide)).trans (W5_v9 m ρ c)
theorem W6_v12 : (W6 (F := Ideal) m ρ c (Proc.devRef .tc main_v12) : TD) = nrm (A m c main_arg2) :=
  (W6_of_ne m ρ c main_v12 (by decide)).trans (W5_v12 m ρ c)

theorem W7_v41 : (W7 (F := Ideal) m ρ c (Proc.devRef .tc main_v41) : TN) = agg (layer1 m c) (A m c main_arg1) (A m c main_arg2) :=
  (ops1_v41 (W6 m ρ c) (W6_v28 m ρ c) (W6_v9 m ρ c) (W6_keep m ρ c main_arg1 (by decide) (by decide))
    (W6_keep m ρ c main_arg2 (by decide) (by decide))).trans (agg_eq _ _ _).symm
theorem W7_v42 (q : Fin 128) :
    (W7 (F := Ideal) m ρ c (Proc.devRef .tc main_v42) : (⟨S1x128, .f32⟩ : BufTy).Contents (Elt Ideal)) (ix2 (0 : Fin 1) q)
      = (A m c main_arg6 : (⟨S128, .f32⟩ : BufTy).Contents (Elt Ideal)) (ix1 q) :=
  ops1_v42 (W6 m ρ c) (W6_keep m ρ c main_arg6 (by decide) (by decide)) q
theorem W7_v43 (p : Fin 100000) :
    (W7 (F := Ideal) m ρ c (Proc.devRef .tc main_v43) : (⟨S100000x1, .f32⟩ : BufTy).Contents (Elt Ideal)) (ix2 p (0 : Fin 1))
      = nrm (A m c main_arg2) (ix1 p) :=
  ops1_v43 (W6 m ρ c) (W6_v12 m ρ c) p
theorem W7_v28 : (W7 (F := Ideal) m ρ c (Proc.devRef .tc main_v28) : TN) = layer1 m c :=
  (keep1 (W6 m ρ c) main_v28 (by decide)).trans (W6_v28 m ρ c)
theorem W7_keep (r : Ref sig .tc) (h1 : r ∉ wr1) (hr : ∀ w, Pipeline.arrRef spec0 w ≠ r) (h : Unwritten5 r) :
    W7 (F := Ideal) m ρ c (Proc.devRef .tc r) = A m c r :=
  (keep1 (W6 m ρ c) r h1).trans (W6_keep m ρ c r hr h)
theorem W7_v9 : (W7 (F := Ideal) m ρ c (Proc.devRef .tc main_v9) : TD) = nrm (A m c main_arg1) :=
  (keep1 (W6 m ρ c) main_v9 (by decide)).trans (W6_v9 m ρ c)
theorem W7_v12 : (W7 (F := Ideal) m ρ c (Proc.devRef .tc main_v12) : TD) = nrm (A m c main_arg2) :=
  (keep1 (W6 m ρ c) main_v12 (by decide)).trans (W6_v12 m ρ c)

/-! ## Region 1 and the stretch after it -/

/-- The second layer. -/
def layer2 : TN :=
  Cert.Spec.dense (agg (layer1 m c) (A m c main_arg1) (A m c main_arg2)) (A m c main_arg5) (A m c main_arg6) (nrm (A m c main_arg2)) (layer1 m c)

theorem W8_v44 : (W8 (F := Ideal) m ρ c (Proc.devRef .tc main_v44) : TN) = layer2 m c :=
  (W8_arr m ρ c 5).trans ((Region.arr1 (V7 m ρ) c (A m c main_arg6) (nrm (A m c main_arg2)) (W7_v42 m ρ c) (W7_v43 m ρ c)).trans
    (dense_congr (W7_v41 m ρ c) (W7_keep m ρ c main_arg5 (by decide) (by decide) (by decide)) (W7_v28 m ρ c)))
theorem W8_keep (r : Ref sig .tc) (hr1 : ∀ w, Pipeline.arrRef spec1 w ≠ r) (h1 : r ∉ wr1)
    (hr : ∀ w, Pipeline.arrRef spec0 w ≠ r) (h : Unwritten5 r) : W8 (F := Ideal) m ρ c (Proc.devRef .tc r) = A m c r :=
  (W8_of_ne m ρ c r hr1).trans (W7_keep m ρ c r h1 hr h)
theorem W8_v9 : (W8 (F := Ideal) m ρ c (Proc.devRef .tc main_v9) : TD) = nrm (A m c main_arg1) :=
  (W8_of_ne m ρ c main_v9 (by decide)).trans (W7_v9 m ρ c)
theorem W8_v12 : (W8 (F := Ideal) m ρ c (Proc.devRef .tc main_v12) : TD) = nrm (A m c main_arg2) :=
  (W8_of_ne m ρ c main_v12 (by decide)).trans (W7_v12 m ρ c)

theorem W9_v57 : (W9 (F := Ideal) m ρ c (Proc.devRef .tc main_v57) : TN) = agg (layer2 m c) (A m c main_arg1) (A m c main_arg2) :=
  (ops2_v57 (W8 m ρ c) (W8_v44 m ρ c) (W8_v9 m ρ c) (W8_keep m ρ c main_arg1 (by decide) (by decide) (by decide) (by decide))
    (W8_keep m ρ c main_arg2 (by decide) (by decide) (by decide) (by decide))).trans (agg_eq _ _ _).symm
theorem W9_v58 (q : Fin 128) :
    (W9 (F := Ideal) m ρ c (Proc.devRef .tc main_v58) : (⟨S1x128, .f32⟩ : BufTy).Contents (Elt Ideal)) (ix2 (0 : Fin 1) q)
      = (A m c main_arg8 : (⟨S128, .f32⟩ : BufTy).Contents (Elt Ideal)) (ix1 q) :=
  ops2_v58 (W8 m ρ c) (W8_keep m ρ c main_arg8 (by decide) (by decide) (by decide) (by decide)) q
theorem W9_v59 (p : Fin 100000) :
    (W9 (F := Ideal) m ρ c (Proc.devRef .tc main_v59) : (⟨S100000x1, .f32⟩ : BufTy).Contents (Elt Ideal)) (ix2 p (0 : Fin 1))
      = nrm (A m c main_arg2) (ix1 p) :=
  ops2_v59 (W8 m ρ c) (W8_v12 m ρ c) p
theorem W9_arg7 : W9 (F := Ideal) m ρ c (Proc.devRef .tc main_arg7) = A m c main_arg7 :=
  (keep2 (W8 m ρ c) main_arg7 (by decide)).trans (W8_keep m ρ c main_arg7 (by decide) (by decide) (by decide) (by decide))

/-! ## Region 2: the result -/

/-- The result buffer at the last boundary is the three layers of the nine arguments. -/
theorem result :
    W10 (F := Ideal) m ρ c (Proc.devRef .tc main_v60)
      = gcn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) :=
  (W10_arr m ρ c 4).trans ((Region.arr2 (V9 m ρ) c (A m c main_arg8) (nrm (A m c main_arg2)) (W9_v58 m ρ c) (W9_v59 m ρ c)).trans
    ((lin_congr (W9_v57 m ρ c) (W9_arg7 m ρ c)).trans rfl))

end Cert.KernelIdeal.Host

end
-- ==== Proof.RefLayer.lean ====
/-
  The host program read as three graph-convolution layers.

  The reference computes, for node features `x` (nodes × features), edge sources `src` and edge targets
  `dst` (one node number per edge), three times over

      nrm idx            = clip (segment_sum ones idx) 1 ^ (-1/2)          (one number per node)
      agg x src dst      = segment_sum ((x · nrm src)[src]) dst            (nodes × features)
      last x W b src dst = (agg x src dst · Wᵀ + b) · nrm dst
      layer x W b src dst = max (last x W b src dst + x) 0

  and returns `last (layer (layer x …) …) …`.  The four pieces are spelt here exactly as the subterms of the
  program's composed result term, so the result term is their composition by unfolding alone (`res_eq`);
  the dense half of a layer is then read entry by entry (`last_eq`, `layer_eq`): the host contraction is the
  sum over the 128 input features, the transposed weight is read at the swapped index, and each broadcast
  reads its operand at the coordinates it keeps.  The gather and the two segment sums stay opaque: both
  programs are compared on them as whole arrays.
-/
import proofs.«126953_j15590731285057_1_alg».proof.Proof.Gen.ReferenceIdeal.Read
import proofs.«126953_j15590731285057_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.RefLayer

open Cert.ReferenceIdeal Cert.ReferenceIdeal.Gen Idealize.ShloMosaic Idealize.ShloMosaic.TcCoe Idealize.SL.Sem
  Idealize.ShloMosaic.StableHlo Idealize.ShloMosaic.ValueIdx

/-- The degree scale of an index list: the number of edges naming each node, at least one, to the power −1/2. -/
def nrm (idx : (⟨S1600000, .i32⟩ : BufTy).Contents (Elt Ideal)) : (⟨S100000, .f32⟩ : BufTy).Contents (Elt Ideal) :=
  Host.powf (F := Ideal) (maximumf (broadcastInDim S100000 ![] bcast_S_S100000 (id (constant (F := Ideal) S_ .f32 0x3F800000#32))) (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 idx) (broadcastInDim S1600000 ![] bcast_S_S1600000 (constant (F := Ideal) S_ .f32 0x3F800000#32)))) (broadcastInDim S100000 ![] bcast_S_S100000 (constant (F := Ideal) S_ .f32 0xBF000000#32))

/-- The aggregated messages: each node's features scaled by its source-degree factor, gathered along the edges'
    sources (a negative node number counted from the end) and summed into the edges' targets. -/
def agg (x : (⟨S100000x128, .f32⟩ : BufTy).Contents (Elt Ideal)) (src dst : (⟨S1600000, .i32⟩ : BufTy).Contents (Elt Ideal)) :
    (⟨S100000x128, .f32⟩ : BufTy).Contents (Elt Ideal) :=
  Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 dst) (Host.gather gather_S100000x128_S1600000x1_S1600000x128_1_0_n_n_0_1_1128 (mulf x (broadcastInDim S100000x128 ![0, 1] bcast_S100000x1_S100000x128_0_1 (broadcastInDim S100000x1 ![0] bcast_S100000_S100000x1_0 (nrm src)))) (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))

/-- The dense half without the residual: `(agg · Wᵀ + b) · nrm dst`. -/
def last (x : (⟨S100000x128, .f32⟩ : BufTy).Contents (Elt Ideal)) (W : (⟨S128x128, .f32⟩ : BufTy).Contents (Elt Ideal))
    (b : (⟨S128, .f32⟩ : BufTy).Contents (Elt Ideal)) (src dst : (⟨S1600000, .i32⟩ : BufTy).Contents (Elt Ideal)) :
    (⟨S100000x128, .f32⟩ : BufTy).Contents (Elt Ideal) :=
  mulf (addf (Host.dotGeneral (F := Ideal) (φ₁ := .f32) (φ₂ := .f32) dot_S100000x128_S128x128_S100000x128_1_0_0_1_n_n none (agg x src dst) (transpose S128x128 [1, 0] W transposes_S128x128_S128x128_1_0)) (broadcastInDim S100000x128 ![0, 1] bcast_S1x128_S100000x128_0_1 (broadcastInDim S1x128 ![1] bcast_S128_S1x128_1 b))) (broadcastInDim S100000x128 ![0, 1] bcast_S100000x1_S100000x128_0_1 (broadcastInDim S100000x1 ![0] bcast_S100000_S100000x1_0 (nrm dst)))

/-- A full layer: the dense half plus the layer's input, rectified. -/
def layer (x : (⟨S100000x128, .f32⟩ : BufTy).Contents (Elt Ideal)) (W : (⟨S128x128, .f32⟩ : BufTy).Contents (Elt Ideal))
    (b : (⟨S128, .f32⟩ : BufTy).Contents (Elt Ideal)) (src dst : (⟨S1600000, .i32⟩ : BufTy).Contents (Elt Ideal)) :
    (⟨S100000x128, .f32⟩ : BufTy).Contents (Elt Ideal) :=
  maximumf (addf (last x W b src dst) x) (broadcastInDim S100000x128 ![] bcast_S_S100000x128 (constant (F := Ideal) S_ .f32 0x00000000#32))

set_option maxRecDepth 8192 in
/-- The program's composed result term is two full layers and a last dense half, by unfolding alone. -/
theorem res_eq (m : (ℓ : Loc nD τ sig) → Buf (Elt Ideal) ℓ) (c : Dev nD) :
    Cert.ReferenceIdeal.Value.res_main_v108 (F := Ideal) m c
      = last (layer (layer (m ((c.tc : Thread nD τ).loc main_arg0)) (m ((c.tc : Thread nD τ).loc main_arg3))
                        (m ((c.tc : Thread nD τ).loc main_arg4)) (m ((c.tc : Thread nD τ).loc main_arg1))
                        (m ((c.tc : Thread nD τ).loc main_arg2)))
                    (m ((c.tc : Thread nD τ).loc main_arg5)) (m ((c.tc : Thread nD τ).loc main_arg6))
                    (m ((c.tc : Thread nD τ).loc main_arg1)) (m ((c.tc : Thread nD τ).loc main_arg2)))
             (m ((c.tc : Thread nD τ).loc main_arg7)) (m ((c.tc : Thread nD τ).loc main_arg8))
             (m ((c.tc : Thread nD τ).loc main_arg1)) (m ((c.tc : Thread nD τ).loc main_arg2)) := by
  unfold Cert.ReferenceIdeal.Value.res_main_v108 last layer agg nrm
  rfl

/-! ## The dense half, entry by entry -/

/-- The host contraction at (p, q): row `p` of the left operand against column `q` of the right, summed over the
    128 contracted positions. -/
theorem dot_apply (A : (⟨S100000x128, .f32⟩ : BufTy).Contents (Elt Ideal)) (B : (⟨S128x128, .f32⟩ : BufTy).Contents (Elt Ideal))
    (p : Fin 100000) (q : Fin 128) :
    Host.dotGeneral (F := Ideal) (φ₁ := .f32) (φ₂ := .f32) dot_S100000x128_S128x128_S100000x128_1_0_0_1_n_n none A B (ix2 p q)
      = ∑ k : Fin 128, A (ix2 p k) * B (ix2 k q) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 p q) ((ValueIdx.contrEquiv1 dot_S100000x128_S128x128_S100000x128_1_0_0_1_n_n 128 rfl rfl).symm k) = ix2 p k := funext fun a => Fin.ext (by
    match a with
    | ⟨0, _⟩ => exact Cert.ReferenceIdeal.Read.lhs_main_v21_0 _ _
    | ⟨1, _⟩ => exact (Cert.ReferenceIdeal.Read.lhs_main_v21_1 _ _).trans hk)
  have er : dot_S100000x128_S128x128_S100000x128_1_0_0_1_n_n.rhsIdx (ix2 p q) ((ValueIdx.contrEquiv1 dot_S100000x128_S128x128_S100000x128_1_0_0_1_n_n 128 rfl rfl).symm k) = ix2 k q := funext fun a => Fin.ext (by
    match a with
    | ⟨0, _⟩ => exact (Cert.ReferenceIdeal.Read.rhs_main_v21_0 _ _).trans hk
    | ⟨1, _⟩ => exact Cert.ReferenceIdeal.Read.rhs_main_v21_1 _ _)
  rw [el, er]

/-- The transposed weight at (k, q) is the weight at (q, k). -/
theorem transpose_W (W : (⟨S128x128, .f32⟩ : BufTy).Contents (Elt Ideal)) (k q : Fin 128) :
    transpose S128x128 [1, 0] W transposes_S128x128_S128x128_1_0 (ix2 k q) = W (ix2 q k) :=
  transpose_apply [1, 0] W transposes_S128x128_S128x128_1_0 (ix2 k q) (ix2 q k) (fun b => match b with
    | ⟨0, _⟩ => rfl
    | ⟨1, _⟩ => rfl)

/-- The bias broadcast over the nodes, at (p, q), is the bias at `q`. -/
theorem bias_apply (b : (⟨S128, .f32⟩ : BufTy).Contents (Elt Ideal)) (p : Fin 100000) (q : Fin 128) :
    broadcastInDim S100000x128 ![0, 1] bcast_S1x128_S100000x128_0_1 (broadcastInDim S1x128 ![1] bcast_S128_S1x128_1 b) (ix2 p q)
      = b (ix1 q) := by
  refine (broadcastInDim_apply _ bcast_S1x128_S100000x128_0_1 _ (ix2 p q) (ix2 (⟨0, Nat.one_pos⟩ : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 b (ix2 (⟨0, Nat.one_pos⟩ : Fin 1) q) (ix1 q) (fun a => match a with
    | ⟨0, _⟩ => by show q.val = if (128 : Nat) = 1 then 0 else q.val; rw [if_neg (by decide)])

/-- A per-node scale broadcast over the features, at (p, q), is the scale at `p`. -/
theorem scale_apply (n : (⟨S100000, .f32⟩ : BufTy).Contents (Elt Ideal)) (p : Fin 100000) (q : Fin 128) :
    broadcastInDim S100000x128 ![0, 1] bcast_S100000x1_S100000x128_0_1 (broadcastInDim S100000x1 ![0] bcast_S100000_S100000x1_0 n) (ix2 p q)
      = n (ix1 p) := by
  refine (broadcastInDim_apply _ bcast_S100000x1_S100000x128_0_1 _ (ix2 p q) (ix2 p (⟨0, Nat.one_pos⟩ : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])).trans ?_
  exact broadcastInDim_apply _ bcast_S100000_S100000x1_0 n (ix2 p (⟨0, Nat.one_pos⟩ : Fin 1)) (ix1 p) (fun a => match a with
    | ⟨0, _⟩ => by show p.val = if (100000 : Nat) = 1 then 0 else p.val; rw [if_neg (by decide)])

/-- The rectifier's zero array is the f32 zero word at every entry. -/
theorem zero_apply (i : S100000x128.Idx) :
    broadcastInDim S100000x128 ![] bcast_S_S100000x128 (constant (F := Ideal) S_ .f32 0x00000000#32) i
      = Ideal.ofBits .f32 0x00000000#32 :=
  broadcastInDim_apply _ bcast_S_S100000x128 (constant (F := Ideal) S_ .f32 0x00000000#32) i (fun a => a.elim0) (fun a => a.elim0)

/-- The last dense half is `lin` of the aggregated messages and the target-degree scale. -/
theorem last_eq (x : (⟨S100000x128, .f32⟩ : BufTy).Contents (Elt Ideal)) (W : (⟨S128x128, .f32⟩ : BufTy).Contents (Elt Ideal))
    (b : (⟨S128, .f32⟩ : BufTy).Contents (Elt Ideal)) (src dst : (⟨S1600000, .i32⟩ : BufTy).Contents (Elt Ideal)) :
    last x W b src dst = Cert.Spec.lin (agg x src dst) W b (nrm dst) := by
  unfold last
  generalize agg x src dst = A
  generalize nrm dst = n
  funext i
  obtain ⟨p, q, rfl⟩ : ∃ (p : Fin 100000) (q : Fin 128), i = ix2 p q := ⟨i 0, i 1, eq_ix2 i⟩
  rw [Cert.Spec.lin_apply, mulf_apply, addf_apply, dot_apply, bias_apply, scale_apply]
  refine congrArg (fun s => (s + b (ix1 q)) * n (ix1 p)) (Finset.sum_congr rfl fun k _ => ?_)
  rw [transpose_W]

/-- A full layer is `dense` of the aggregated messages, the target-degree scale and the layer's input. -/
theorem layer_eq (x : (⟨S100000x128, .f32⟩ : BufTy).Contents (Elt Ideal)) (W : (⟨S128x128, .f32⟩ : BufTy).Contents (Elt Ideal))
    (b : (⟨S128, .f32⟩ : BufTy).Contents (Elt Ideal)) (src dst : (⟨S1600000, .i32⟩ : BufTy).Contents (Elt Ideal)) :
    layer x W b src dst = Cert.Spec.dense (agg x src dst) W b (nrm dst) x := by
  unfold layer
  rw [last_eq]
  funext i
  rw [maximumf_apply, addf_apply, zero_apply]
  rfl

end Cert.RefLayer

end
-- ==== Proof.Bridge.lean ====
/-
  The reference's layers and the kernel program's host half are the same functions.

  Both programs spell the degree scale `nrm` and the aggregation `agg` with the same operations at the same
  shapes; they differ only in which program's dimension records (for the two segment sums and the gather) and
  side conditions the terms name.  The records have the same fields, so each pair is equal by unfolding the
  records alone, and the side conditions are proofs of the same propositions.  With the dense half of each
  reference layer read entry by entry as `lin` / `dense`, the reference's three layers are then the kernel
  program's `gcn` term for term.  No segment sum or gather is evaluated anywhere.
-/
import proofs.«126953_j15590731285057_1_alg».proof.Proof.KernelDefs
import proofs.«126953_j15590731285057_1_alg».proof.Proof.RefLayer

noncomputable section

namespace Cert.Bridge

open Idealize.ShloMosaic

/-- The degree segment sum's dimension record is the same in both programs. -/
theorem scatter_deg_eq :
    Cert.ReferenceIdeal.scatter_S100000_S1600000x1_S1600000_n_0_0_1
      = Cert.KernelIdeal.scatter_S100000_S1600000x1_S1600000_n_0_0_1 := rfl

/-- The row segment sum's dimension record is the same in both programs. -/
theorem scatter_rows_eq :
    Cert.ReferenceIdeal.scatter_S100000x128_S1600000x1_S1600000x128_1_0_0_1
      = Cert.KernelIdeal.scatter_S100000x128_S1600000x1_S1600000x128_1_0_0_1 := rfl

/-- The row gather's dimension record is the same in both programs. -/
theorem gather_rows_eq :
    Cert.ReferenceIdeal.gather_S100000x128_S1600000x1_S1600000x128_1_0_n_n_0_1_1128
      = Cert.KernelIdeal.gather_S100000x128_S1600000x1_S1600000x128_1_0_n_n_0_1_1128 := rfl

/-- The degree scale is the same function in both programs. -/
theorem nrm_eq (idx : (⟨Cert.KernelIdeal.S1600000, .i32⟩ : BufTy).Contents (Elt Ideal)) :
    Cert.RefLayer.nrm idx = Cert.KernelIdeal.Host.nrm idx := by
  unfold Cert.RefLayer.nrm Cert.KernelIdeal.Host.nrm
  rw [scatter_deg_eq]

/-- The aggregation is the same function in both programs. -/
theorem agg_eq (x : (⟨Cert.KernelIdeal.S100000x128, .f32⟩ : BufTy).Contents (Elt Ideal)) (src dst : (⟨Cert.KernelIdeal.S1600000, .i32⟩ : BufTy).Contents (Elt Ideal)) :
    Cert.RefLayer.agg x src dst = Cert.KernelIdeal.Host.agg x src dst := by
  unfold Cert.RefLayer.agg Cert.KernelIdeal.Host.agg
  rw [scatter_rows_eq, gather_rows_eq, nrm_eq]

/-- The reference's three layers are the kernel program's host half. -/
theorem gcn_eq (x : (⟨Cert.KernelIdeal.S100000x128, .f32⟩ : BufTy).Contents (Elt Ideal)) (src dst : (⟨Cert.KernelIdeal.S1600000, .i32⟩ : BufTy).Contents (Elt Ideal))
    (W1 : (⟨Cert.KernelIdeal.S128x128, .f32⟩ : BufTy).Contents (Elt Ideal)) (b1 : (⟨Cert.KernelIdeal.S128, .f32⟩ : BufTy).Contents (Elt Ideal))
    (W2 : (⟨Cert.KernelIdeal.S128x128, .f32⟩ : BufTy).Contents (Elt Ideal)) (b2 : (⟨Cert.KernelIdeal.S128, .f32⟩ : BufTy).Contents (Elt Ideal))
    (W3 : (⟨Cert.KernelIdeal.S128x128, .f32⟩ : BufTy).Contents (Elt Ideal)) (b3 : (⟨Cert.KernelIdeal.S128, .f32⟩ : BufTy).Contents (Elt Ideal)) :
    Cert.RefLayer.last (Cert.RefLayer.layer (Cert.RefLayer.layer x W1 b1 src dst) W2 b2 src dst) W3 b3 src dst
      = Cert.KernelIdeal.Host.gcn x src dst W1 b1 W2 b2 W3 b3 := by
  simp only [Cert.RefLayer.last_eq, Cert.RefLayer.layer_eq, agg_eq, nrm_eq]
  rfl

end Cert.Bridge

end
-- ==== Proof.lean ====
/-
  The certificate of a three-layer graph convolution against its plain reference, on the extended reals.

  Each layer aggregates messages on the host — every node's features scaled by `max(out-degree, 1)^(-1/2)`,
  gathered along the edges' sources and summed into the edges' targets — and then applies the dense half
  `(agg · Wᵀ + b) · max(in-degree, 1)^(-1/2)`, followed in the first two layers by the identity residual and the
  rectifier.  The kernel's program computes the dense half in a region of ten row tiles per layer; the reference
  computes it with one host contraction.  Entry by entry both are the same sum over the 128 input features, the
  same bias, the same factor, the same residual and the same maximum with zero; no step moves a factor across a
  sum or cancels anything, so no finiteness of the inputs is used.  The aggregation is the same host term in
  both programs and is carried as an opaque function of whole arrays.

    * `Spec`: the dense half as a function of whole arrays (`lin`, `dense`).
    * `Payload`, `Region0` … `Region2`: what one tile stores, and each region's result array as `dense` / `lin`
      of the arrays the region is entered with.
    * `KernelRun`, `KernelHost`: the kernel program's run with its result named, and that result as the three
      layers composed (`KernelDefs.gcn`) of the argument arrays.
    * `RefLayer`: the reference's result term as the same composition, its dense half read entry by entry.
    * `Bridge`: the two compositions are one function.
-/
import proofs.«126953_j15590731285057_1_alg».proof.Defs
import proofs.«126953_j15590731285057_1_alg».proof.Proof.Gen.Kernel
import proofs.«126953_j15590731285057_1_alg».proof.Proof.Gen.Kernel.Frame
import proofs.«126953_j15590731285057_1_alg».proof.Proof.Gen.KernelIdeal
import proofs.«126953_j15590731285057_1_alg».proof.Proof.Gen.KernelIdeal.Frame
import proofs.«126953_j15590731285057_1_alg».proof.Proof.Gen.ReferenceIdeal
import proofs.«126953_j15590731285057_1_alg».proof.Proof.Gen.ReferenceIdeal.Run
import proofs.«126953_j15590731285057_1_alg».proof.Proof.Gen.Pre_finite_inputs
import proofs.«126953_j15590731285057_1_alg».proof.Proof.KernelRun
import proofs.«126953_j15590731285057_1_alg».proof.Proof.KernelHost
import proofs.«126953_j15590731285057_1_alg».proof.Proof.RefLayer
import proofs.«126953_j15590731285057_1_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a host program: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the three layers composed of the argument arrays. -/
theorem algebraic : Cert.algebraic_KernelIdeal_ReferenceIdeal := by
  intro m ρ m' ρ' _ hagree
  refine ⟨fun c => Cert.KernelIdeal.Host.gcn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Host.result m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    rw [Cert.RefLayer.res_eq, h0, h1, h2, h3, h4, h5, h6, h7, h8]
    exact Cert.Bridge.gcn_eq _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
